-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S32000x256 : Shape := ⟨2, ![32000, 256]⟩
abbrev S768x256 : Shape := ⟨2, ![768, 256]⟩
abbrev S768 : Shape := ⟨1, ![768]⟩
abbrev S32000 : Shape := ⟨1, ![32000]⟩
abbrev S_ : Shape := ⟨0, ![]⟩

class Facts : Prop where
  bcast_S_S32000x256 : S_.BroadcastsInDim S32000x256 (![] : Fin 0 → Fin S32000x256.rank)
  reducesTo_S32000x256_S_d0_1 : S32000x256.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg5 : FVec F S32000x256 .f32) (main_arg6 : FVec F S32000 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S32000x256 .f32 := Host.absf main_arg5
  let main_cst_6 : FVec F S_ .f32 := constant S_ .f32 0x7F800000#32
  let main_v20 : FVec F S32000x256 .f32 := broadcastInDim S32000x256 ![] bcast_S_S32000x256 main_cst_6
  let main_v21 : IVec S32000x256 1 := cmpf .olt main_v19 main_v20
  let main_c_7 : IVec S_ 1 := constantI S_ 1 1#1
  let main_v22 : IVec S_ 1 := (fun x v => Host.reduce IntOp.andi x v reducesTo_S32000x256_S_d0_1 h_S_) main_v21 main_c_7
  let main_v23 : IVec S_ 1 := andi main_v18 main_v22
  let main_v24 : FVec F S32000 .f32 := Host.absf main_arg6
  let main_cst_8 : FVec F S_ .f32 := constant S_ .f32 0x7F800000#32
  let main_v25 : FVec F S32000 .f32 := broadcastInDim S32000 ![] bcast_S_S32000 main_cst_8
  let main_v26 : IVec S32000 1 := cmpf .olt main_v24 main_v25
  let main_c_9 : IVec S_ 1 := constantI S_ 1 1#1
  let main_v27 : IVec S_ 1 := (fun x v => Host.reduce IntOp.andi x v reducesTo_S32000_S_d0 h_S_) main_v26 main_c_9
  let main_v28 : IVec S_ 1 := andi main_v23 main_v27
  main_v28

def fn {F : FTy → Type} [FloatOps F] (main_arg0 : IVec S64x128 32) (main_arg1 : FVec F S32000x256 .f32) (main_arg2 : FVec F S768x256 .f32) (main_arg3 : FVec F S768 .f32) (main_arg4 : FVec F S768 .f32) (main_arg5 : FVec F S32000x256 .f32) (main_arg6 : FVec F S32000 .f32) : IVec S_ 1 :=
  let main_v0 : FVec F S32000x256 .f32 := Host.absf main_arg1
  let main_cst : FVec F S_ .f32 := constant S_ .f32 0x7F800000#32
  let main_v1 : FVec F S32000x256 .f32 := broadcastInDim S32000x256 ![] bcast_S_S32000x256 main_cst
  let main_v2 : IVec S32000x256 1 := cmpf .olt main_v0 main_v1
  let main_c : IVec S_ 1 := constantI S_ 1 1#1
  let main_v3 : IVec S_ 1 := (fun x v => Host.reduce IntOp.andi x v reducesTo_S32000x256_S_d0_1 h_S_) main_v2 main_c
  let main_v4 : FVec F S768x256 .f32 := Host.absf main_arg2
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg5 main_arg6 main_v13 main_v16
-- ==== Kernel.lean ====
abbrev S64x128 : Shape := ⟨2, ![64, 128]⟩
abbrev S32000x256 : Shape := ⟨2, ![32000, 256]⟩
abbrev S768x256 : Shape := ⟨2, ![768, 256]⟩
abbrev S768 : Shape := ⟨1, ![768]⟩
abbrev S32000 : Shape := ⟨1, ![32000]⟩
abbrev S_ : Shape := ⟨0, ![]⟩
abbrev S64x128x1 : Shape := ⟨3, ![64, 128, 1]⟩
abbrev S64x128x256 : Shape := ⟨3, ![64, 128, 256]⟩
abbrev S8192x256 : Shape := ⟨2, ![8192, 256]⟩
abbrev S256x768 : Shape := ⟨2, ![256, 768]⟩
abbrev S256x32000 : Shape := ⟨2, ![256, 32000]⟩
abbrev S1x32000 : Shape := ⟨2, ![1, 32000]⟩
abbrev S1024x256 : Shape := ⟨2, ![1024, 256]⟩
abbrev S1024x768 : Shape := ⟨2, ![1024, 768]⟩
abbrev S1x768 : Shape := ⟨2, ![1, 768]⟩
abbrev S256 : Shape := ⟨1, ![256]⟩
abbrev S1x256 : Shape := ⟨2, ![1, 256]⟩
abbrev S8192x32000 : Shape := ⟨2, ![8192, 32000]⟩
abbrev S512x256 : Shape := ⟨2, ![512, 256]⟩
abbrev S256x3200 : Shape := ⟨2, ![256, 3200]⟩
abbrev S1x3200 : Shape := ⟨2, ![1, 3200]⟩
abbrev S512x3200 : Shape := ⟨2, ![512, 3200]⟩
abbrev S64x128x32000 : Shape := ⟨3, ![64, 128, 32000]⟩

abbrev nBuf : Space → Nat
  | .hbm => 26
  | .vmem => 15
  | .smem => 0
  | _ => 0

abbrev bufTy : (tb : Table) → Fin (tcTables nBuf tb) → BufTy
  | .hbm, ⟨0, _⟩ => ⟨S64x128, .i32⟩
  | .hbm, ⟨1, _⟩ => ⟨S32000x256, .f32⟩
  | .hbm, ⟨2, _⟩ => ⟨S768x256, .f32⟩
  | .hbm, ⟨3, _⟩ => ⟨S768, .f32⟩
  | .hbm, ⟨4, _⟩ => ⟨S768, .f32⟩
  | .hbm, ⟨5, _⟩ => ⟨S32000x256, .f32⟩
  | .hbm, ⟨6, _⟩ => ⟨S32000, .f32⟩
  | .hbm, ⟨7, _⟩ => ⟨S_, .i32⟩
  | .hbm, ⟨8, _⟩ => ⟨S64x128, .i32⟩
  | .hbm, ⟨9, _⟩ => ⟨S64x128, .i1⟩
  | .hbm, ⟨10, _⟩ => ⟨S_, .i32⟩
  | .hbm, ⟨11, _⟩ => ⟨S64x128, .i32⟩
  | .hbm, ⟨12, _⟩ => ⟨S64x128, .i32⟩
  | .hbm, ⟨13, _⟩ => ⟨S64x128, .i32⟩
  | .hbm, ⟨14, _⟩ => ⟨S64x128x1, .i32⟩
  | .hbm, ⟨15, _⟩ => ⟨S64x128x256, .f32⟩
  | .hbm, ⟨16, _⟩ => ⟨S8192x256, .f32⟩
  | .hbm, ⟨17, _⟩ => ⟨S8192x256, .bf16⟩
  | .hbm, ⟨18, _⟩ => ⟨S256x768, .f32⟩
  | .hbm, ⟨19, _⟩ => ⟨S256x768, .bf16⟩
  | .hbm, ⟨20, _⟩ => ⟨S256x32000, .f32⟩
  | .hbm, ⟨21, _⟩ => ⟨S256x32000, .bf16⟩
  | .hbm, ⟨22, _⟩ => ⟨S1x32000, .f32⟩
  | .hbm, ⟨23, _⟩ => ⟨S8192x256, .bf16⟩
  | .hbm, ⟨24, _⟩ => ⟨S8192x32000, .f32⟩
  | .hbm, ⟨25, _⟩ => ⟨S64x128x32000, .f32⟩
  | .local _ .vmem, ⟨0, _⟩ => ⟨S1024x256, .bf16⟩
  | .local _ .vmem, ⟨1, _⟩ => ⟨S1024x256, .bf16⟩
  | .local _ .vmem, ⟨2, _⟩ => ⟨S256x768, .bf16⟩
  | .local _ .vmem, ⟨3, _⟩ => ⟨S768, .f32⟩
  | .local _ .vmem, ⟨4, _⟩ => ⟨S768, .f32⟩
  | .local _ .vmem, ⟨5, _⟩ => ⟨S1024x256, .bf16⟩
  | .local _ .vmem, ⟨6, _⟩ => ⟨S1024x256, .bf16⟩
  | .local _ .vmem, ⟨7, _⟩ => ⟨S512x256, .bf16⟩
  | .local _ .vmem, ⟨8, _⟩ => ⟨S512x256, .bf16⟩
  | .local _ .vmem, ⟨9, _⟩ => ⟨S256x3200, .bf16⟩
  | .local _ .vmem, ⟨10, _⟩ => ⟨S256x3200, .bf16⟩
  | .local _ .vmem, ⟨11, _⟩ => ⟨S1x3200, .f32⟩
  | .local _ .vmem, ⟨12, _⟩ => ⟨S1x3200, .f32⟩
  | .local _ .vmem, ⟨13, _⟩ => ⟨S512x3200, .f32⟩
  | .local _ .vmem, ⟨14, _⟩ => ⟨S512x3200, .f32⟩
  | _, _ => ⟨S64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![10, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x3200 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  shapeCasts_S64x128x256_S8192x256 : S64x128x256.ShapeCasts S8192x256
  bitsLt_bf16_f32 : FTy.bits .bf16 < FTy.bits .f32
  transposes_S768x256_S256x768_1_0 : S768x256.Transposes [1, 0] S256x768
  transposes_S32000x256_S256x32000_1_0 : S32000x256.Transposes [1, 0] S256x32000
  shapeCasts_S32000_S1x32000 : S32000.ShapeCasts S1x32000
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  slices_S768_o0_S256 : S768.Slices ![0] S256
  slices_S768_o256_S256 : S768.Slices ![256] S256
  slices_S768_o512_S256 : S768.Slices ![512] S256
  shapeCasts_S256_S1x256 : S256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x3200_S256x3200_0_0 : ∀ a, (![0, 0] : Fin 2 → Nat) a + S256x3200.size a ≤ S256x3200.size a
  h_S256x3200 : 0 < S256x3200.numel
  shapeCasts_S256x3200_S256x3200 : S256x3200.ShapeCasts S256x3200
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S512x3200 : S1x3200.Broadcasts S512x3200
  inb_S512x3200_S512x3200_0_0 : ∀ a, (![0, 0] : Fin 2 → Nat) a + S512x3200.size a ≤ S512x3200.size a
  h_S512x3200 : 0 < S512x3200.numel
  shapeCasts_S8192x32000_S64x128x32000 : S8192x32000.ShapeCasts S64x128x32000
  gather_S32000x256_S64x128x1_S64x128x256_2_0_n_n_0_2_1256_wf : GatherDims.WF S32000x256 S64x128x1 S64x128x256 [2] [0] [] [0] [] 2 ![1, 256]
  dot_S1024x256_S256x768_S1024x768_1_0_0_1_n_n_wf : DotDims.WF S1024x256 S256x768 S1024x768 [1] [0] [0] [1] [] []
  dot_S512x256_S256x3200_S512x3200_1_0_0_1_n_n_wf : DotDims.WF S512x256 S256x3200 S512x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .bf16 = 32 ∨ (Rect.block (s := S8192x256) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x3200.size a ≤ S256x32000.size a
  hwx1_1 : ∀ i : grid1.Coords, EltTy.bits .bf16 = 32 ∨ (Rect.block (s := S256x32000) S256x3200.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3200.size a ≤ S1x32000.size a
  hwx1_2 : ∀ i : grid1.Coords, EltTy.bits .f32 = 32 ∨ (Rect.block (s := S1x32000) S1x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x3200.size a ≤ S8192x32000.size a
  hwx1_3 : ∀ i : grid1.Coords, EltTy.bits .f32 = 32 ∨ (Rect.block (s := S8192x32000) S512x3200.size (cc1_transform_3 i) (hinb1_3 i)).WholeWords (EltTy.packing .f32)

variable [Facts₀]

def gather_S32000x256_S64x128x1_S64x128x256_2_0_n_n_0_2_1256 : GatherDims S32000x256 S64x128x1 S64x128x256 where
  offsetDims := [2]
  collapsedSliceDims := [0]
  operandBatchingDims := []
  startIndicesBatchingDims := []
  startIndexMap := [0]
  indexVectorDim := 2
  sliceSizes := ![1, 256]
  wf := gather_S32000x256_S64x128x1_S64x128x256_2_0_n_n_0_2_1256_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S512x256_S256x3200_S512x3200_1_0_0_1_n_n : DotDims S512x256 S256x3200 S512x3200 where
  lhsContracting := [1]
  rhsContracting := [0]
  lhsNonContracting := [0]
  rhsNonContracting := [1]
  lhsBatch := []
  rhsBatch := []
  wf := dot_S512x256_S256x3200_S512x3200_1_0_0_1_n_n_wf

abbrev win0_0 : Pipeline.Window sig grid0 :=
  Pipeline.Window.ofSpec (Memref.whole main_v8) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S256x3200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S512x3200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x128 : Shape := ⟨2, ![64, 128]⟩
abbrev S32000x256 : Shape := ⟨2, ![32000, 256]⟩
abbrev S768x256 : Shape := ⟨2, ![768, 256]⟩
abbrev S768 : Shape := ⟨1, ![768]⟩
abbrev S32000 : Shape := ⟨1, ![32000]⟩
abbrev S_ : Shape := ⟨0, ![]⟩
abbrev S64x128x1 : Shape := ⟨3, ![64, 128, 1]⟩
abbrev S64x128x256 : Shape := ⟨3, ![64, 128, 256]⟩
abbrev S64x128x768 : Shape := ⟨3, ![64, 128, 768]⟩
abbrev S1x1x768 : Shape := ⟨3, ![1, 1, 768]⟩
abbrev S256 : Shape := ⟨1, ![256]⟩
abbrev S1x1x256 : Shape := ⟨3, ![1, 1, 256]⟩
abbrev S64x128x32000 : Shape := ⟨3, ![64, 128, 32000]⟩
abbrev S1x1x32000 : Shape := ⟨3, ![1, 1, 32000]⟩

abbrev nBuf : Space → Nat
  | .hbm => 61
  | .vmem => 0
  | .smem => 0
  | _ => 0

abbrev bufTy : (tb : Table) → Fin (tcTables nBuf tb) → BufTy
  | .hbm, ⟨0, _⟩ => ⟨S64x128, .i32⟩
  | .hbm, ⟨1, _⟩ => ⟨S32000x256, .f32⟩
  | .hbm, ⟨2, _⟩ => ⟨S768x256, .f32⟩
  | .hbm, ⟨3, _⟩ => ⟨S768, .f32⟩
  | .hbm, ⟨4, _⟩ => ⟨S768, .f32⟩
  | .hbm, ⟨5, _⟩ => ⟨S32000x256, .f32⟩
  | .hbm, ⟨6, _⟩ => ⟨S32000, .f32⟩
  | .hbm, ⟨7, _⟩ => ⟨S_, .i32⟩
  | .hbm, ⟨8, _⟩ => ⟨S64x128, .i32⟩
  | .hbm, ⟨9, _⟩ => ⟨S64x128, .i1⟩
  | .hbm, ⟨10, _⟩ => ⟨S_, .i32⟩
  | .hbm, ⟨11, _⟩ => ⟨S64x128, .i32⟩
  | .hbm, ⟨12, _⟩ => ⟨S64x128, .i32⟩
  | .hbm, ⟨13, _⟩ => ⟨S64x128, .i32⟩
  | .hbm, ⟨14, _⟩ => ⟨S64x128x1, .i32⟩
  | .hbm, ⟨15, _⟩ => ⟨S64x128x256, .f32⟩
  | .hbm, ⟨16, _⟩ => ⟨S64x128x768, .f32⟩
  | .hbm, ⟨17, _⟩ => ⟨S1x1x768, .f32⟩
  | .hbm, ⟨18, _⟩ => ⟨S64x128x768, .f32⟩
  | .hbm, ⟨19, _⟩ => ⟨S64x128x768, .f32⟩
  | .hbm, ⟨20, _⟩ => ⟨S64x128x256, .f32⟩
  | .hbm, ⟨21, _⟩ => ⟨S64x128x256, .f32⟩
  | .hbm, ⟨22, _⟩ => ⟨S64x128x256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S1x1x256, .f32⟩
  | .hbm, ⟨27, _⟩ => ⟨S64x128x256, .f32⟩
  | .hbm, ⟨28, _⟩ => ⟨S64x128x256, .f32⟩
  | .hbm, ⟨29, _⟩ => ⟨S64x128x256, .f32⟩
  | .hbm, ⟨30, _⟩ => ⟨S64x128x256, .f32⟩
  | .hbm, ⟨31, _⟩ => ⟨S_, .f32⟩
  | .hbm, ⟨32, _⟩ => ⟨S64x128x256, .f32⟩
  | .hbm, ⟨33, _⟩ => ⟨S64x128x256, .f32⟩
  | .hbm, ⟨34, _⟩ => ⟨S_, .f32⟩
  | .hbm, ⟨35, _⟩ => ⟨S64x128x256, .f32⟩
  | .hbm, ⟨36, _⟩ => ⟨S64x128x256, .f32⟩
  | .hbm, ⟨37, _⟩ => ⟨S1x1x256, .f32⟩
  | .hbm, ⟨38, _⟩ => ⟨S64x128x256, .f32⟩
  | .hbm, ⟨39, _⟩ => ⟨S64x128x256, .f32⟩
  | .hbm, ⟨40, _⟩ => ⟨S64x128x256, .f32⟩
  | .hbm, ⟨41, _⟩ => ⟨S64x128x256, .f32⟩
  | .hbm, ⟨42, _⟩ => ⟨S_, .f32⟩
  | .hbm, ⟨43, _⟩ => ⟨S64x128x256, .f32⟩
  | .hbm, ⟨44, _⟩ => ⟨S64x128x256, .f32⟩
  | .hbm, ⟨45, _⟩ => ⟨S_, .f32⟩
  | .hbm, ⟨46, _⟩ => ⟨S64x128x256, .f32⟩
  | .hbm, ⟨47, _⟩ => ⟨S64x128x256, .f32⟩
  | .hbm, ⟨48, _⟩ => ⟨S1x1x256, .f32⟩
  | .hbm, ⟨49, _⟩ => ⟨S64x128x256, .f32⟩
  | .hbm, ⟨50, _⟩ => ⟨S64x128x256, .f32⟩
  | .hbm, ⟨51, _⟩ => ⟨S64x128x256, .f32⟩
  | .hbm, ⟨52, _⟩ => ⟨S64x128x256, .f32⟩
  | .hbm, ⟨53, _⟩ => ⟨S_, .f32⟩
  | .hbm, ⟨54, _⟩ => ⟨S64x128x256, .f32⟩
  | .hbm, ⟨55, _⟩ => ⟨S64x128x256, .f32⟩
  | .hbm, ⟨56, _⟩ => ⟨S64x128x256, .f32⟩
  | .hbm, ⟨57, _⟩ => ⟨S64x128x32000, .f32⟩
  | .hbm, ⟨58, _⟩ => ⟨S1x1x32000, .f32⟩
  | .hbm, ⟨59, _⟩ => ⟨S64x128x32000, .f32⟩
  | .hbm, ⟨60, _⟩ => ⟨S64x128x32000, .f32⟩
  | _, _ => ⟨S64x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]

class Facts₀ : Prop where
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S768_S1x1x768_2 : S768.BroadcastsInDim S1x1x768 (![2] : Fin 1 → Fin S1x1x768.rank)
  bcast_S1x1x768_S64x128x768_0_1_2 : S1x1x768.BroadcastsInDim S64x128x768 (![0, 1, 2] : Fin 3 → Fin S64x128x768.rank)
  slices_S64x128x768_S64x128x256_0_0_0 : S64x128x768.Slices ![0, 0, 0] S64x128x256
  slices_S64x128x768_S64x128x256_0_0_256 : S64x128x768.Slices ![0, 0, 256] S64x128x256
  slices_S64x128x768_S64x128x256_0_0_512 : S64x128x768.Slices ![0, 0, 512] S64x128x256
  slices_S768_S256_0 : S768.Slices ![0] S256
  slices_S768_S256_256 : S768.Slices ![256] S256
  slices_S768_S256_512 : S768.Slices ![512] S256
  bcast_S256_S1x1x256_2 : S256.BroadcastsInDim S1x1x256 (![2] : Fin 1 → Fin S1x1x256.rank)
  bcast_S1x1x256_S64x128x256_0_1_2 : S1x1x256.BroadcastsInDim S64x128x256 (![0, 1, 2] : Fin 3 → Fin S64x128x256.rank)
  bcast_S_S64x128x256 : S_.BroadcastsInDim S64x128x256 (![] : Fin 0 → Fin S64x128x256.rank)
  bcast_S32000_S1x1x32000_2 : S32000.BroadcastsInDim S1x1x32000 (![2] : Fin 1 → Fin S1x1x32000.rank)
  bcast_S1x1x32000_S64x128x32000_0_1_2 : S1x1x32000.BroadcastsInDim S64x128x32000 (![0, 1, 2] : Fin 3 → Fin S64x128x32000.rank)
  gather_S32000x256_S64x128x1_S64x128x256_2_0_n_n_0_2_1256_wf : GatherDims.WF S32000x256 S64x128x1 S64x128x256 [2] [0] [] [0] [] 2 ![1, 256]
  dot_S64x128x256_S768x256_S64x128x768_2_1_01_0_n_n_wf : DotDims.WF S64x128x256 S768x256 S64x128x768 [2] [1] [0, 1] [0] [] []
  dot_S64x128x256_S32000x256_S64x128x32000_2_1_01_0_n_n_wf : DotDims.WF S64x128x256 S32000x256 S64x128x32000 [2] [1] [0, 1] [0] [] []

variable [Facts₀]

def gather_S32000x256_S64x128x1_S64x128x256_2_0_n_n_0_2_1256 : GatherDims S32000x256 S64x128x1 S64x128x256 where
  offsetDims := [2]
  collapsedSliceDims := [0]
  operandBatchingDims := []
  startIndicesBatchingDims := []
  startIndexMap := [0]
  indexVectorDim := 2
  sliceSizes := ![1, 256]
  wf := gather_S32000x256_S64x128x1_S64x128x256_2_0_n_n_0_2_1256_wf
def dot_S64x128x256_S768x256_S64x128x768_2_1_01_0_n_n : DotDims S64x128x256 S768x256 S64x128x768 where
  lhsContracting := [2]
  rhsContracting := [1]
  lhsNonContracting := [0, 1]
  rhsNonContracting := [0]
  lhsBatch := []
  rhsBatch := []
  wf := dot_S64x128x256_S768x256_S64x128x768_2_1_01_0_n_n_wf
def dot_S64x128x256_S32000x256_S64x128x32000_2_1_01_0_n_n : DotDims S64x128x256 S32000x256 S64x128x32000 where
  lhsContracting := [2]
  rhsContracting := [1]
  lhsNonContracting := [0, 1]
  rhsNonContracting := [0]
  lhsBatch := []
  rhsBatch := []
  wf := dot_S64x128x256_S32000x256_S64x128x32000_2_1_01_0_n_n_wf

class Facts : Prop extends Facts₀ where

variable [Facts]
-- ==== Proof.Spec.lean ====
/-
  What both programs compute, one token row at a time, on the extended reals.

  A token row is a vector x of 256 numbers (the embedding of one token). With the input weights w (768 rows of
  256), the input bias bi and the hidden bias bh (768 each), its three gate pre-activations are
  a_g = (sum over k of x_k * w_{g,k}) + bi_g for g < 768, read in three thirds of 256: reset, update, candidate.
  The hidden state starts at zero, so the recurrent weights drop out and only bh remains:
      r_q = logistic (a_q + bh_q),   z_q = logistic (a_{256+q} + bh_{256+q}),
      n_q = tanh (a_{512+q} + r_q * bh_{512+q}),   h_q = (1 - z_q) * n_q          (q < 256).
  The classifier then gives, for each vocabulary entry v, (sum over k of h_k * c_{v,k}) + d_v.
  Nothing here is rearranged between the two programs: both form exactly these sums and products, so the
  functions below are stated once and each side is shown to be them.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The number the word of 1.0 denotes (it is 1: `one_eq`); the update gate is subtracted from it. -/
def one : EReal := Ideal.ofBits .f32 0x3F800000#32

/-- The word of 1.0 denotes 1. -/
theorem one_eq : one = 1 := by
  unfold one; simp [Ideal.ofBits, Ideal.ieee, -EReal.coe_mul]; norm_num

/-- Position q of the first third of the 768 gates (reset). -/
def lo (q : Fin 256) : Fin 768 := ⟨q.val, by omega⟩
/-- Position q of the second third (update). -/
def mid (q : Fin 256) : Fin 768 := ⟨256 + q.val, by omega⟩
/-- Position q of the last third (candidate). -/
def hi (q : Fin 256) : Fin 768 := ⟨512 + q.val, by omega⟩

/-- Gate pre-activation g of a token row x: the row against row g of the input weights, plus the input bias. -/
def gateRow (x : Fin 256 → EReal) (w : Fin 768 → Fin 256 → EReal) (bi : Fin 768 → EReal) (g : Fin 768) : EReal :=
  (∑ k : Fin 256, x k * w g k) + bi g

/-- Entry q of the new hidden state of a token row, from a zero previous state: (1 - z) * n. -/
def hiddenRow (x : Fin 256 → EReal) (w : Fin 768 → Fin 256 → EReal) (bi bh : Fin 768 → EReal) (q : Fin 256) : EReal :=
  (one - Ideal.logistic (gateRow x w bi (mid q) + bh (mid q)))
    * Ideal.tanh (gateRow x w bi (hi q) + Ideal.logistic (gateRow x w bi (lo q) + bh (lo q)) * bh (hi q))

/-- One logit of a token row: its hidden state h against one row c of the classifier weights, plus that entry's bias d. -/
def logitRow (h : Fin 256 → EReal) (c : Fin 256 → EReal) (d : EReal) : EReal :=
  (∑ k : Fin 256, h k * c k) + d

/-- The logistic function written out as a quotient with the word of 1.0 in both places, as the reference spells it,
    is the logistic function: the word denotes 1, and the logistic function is by definition 1 / (1 + e^(-x)) with
    the same quotient. -/
theorem logistic_spelled (x : EReal) : Ideal.div one (one + Ideal.exp (-x)) = Ideal.logistic x := by
  rw [one_eq]; rfl

end Cert.Spec

end
-- ==== Proof.RefValue.lean ====
/-
  The reference's result, read at one entry, is the classifier logit of the hidden state of that token's row.

  The reference works on whole arrays: it multiplies all 64 x 128 token rows by the input weights at once, adds the
  input bias, cuts the 768 gate columns into three thirds of 256, adds the hidden bias to each third, and so on.
  Read at one batch b, one time t and one column, every one of these array operations touches only the numbers of
  token (b, t): a matrix product reads row (b, t) of its left operand, a bias broadcast reads the bias at the column,
  a slice of the third that starts at 256 or 512 reads column 256 + q or 512 + q. Following the operations in order
  therefore rebuilds, entry by entry, the formulas of the specification: first the 768 gate pre-activations, then the
  reset gate, the update gate, the candidate, the new hidden state, and last the logit.
-/
import proofs.«177133_j71777493451434_2_alg».proof.Proof.Gen.ReferenceIdeal.Read
import proofs.«177133_j71777493451434_2_alg».proof.Proof.Spec
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read

section stages

variable (x0 : (⟨S64x128, .i32⟩ : BufTy).Contents (Elt Ideal)) (x1 : (⟨S32000x256, .f32⟩ : BufTy).Contents (Elt Ideal))
  (x2 : (⟨S768x256, .f32⟩ : BufTy).Contents (Elt Ideal)) (x3 x4 : (⟨S768, .f32⟩ : BufTy).Contents (Elt Ideal))

/-! ## The arrays as the specification's functions -/

/-- The token row of batch b at time t: the 256 numbers of its gathered embedding. -/
abbrev tokenRow (b : Fin 64) (t : Fin 128) : Fin 256 → EReal := fun k => val_main_v6 (F := Ideal) x0 x1 (ix3 b t k)

/-- The input weights as 768 rows of 256 numbers. -/
abbrev inW : Fin 768 → Fin 256 → EReal := fun g k => x2 (ix2 g k)

/-- A bias array of length 768 as a function of the gate position. -/
abbrev vec768 (x : (⟨S768, .f32⟩ : BufTy).Contents (Elt Ideal)) : Fin 768 → EReal := fun g => x (ix1 g)

/-! ## Which entries each array operation reads

  Each statement below says where, for the entry (b, t, column) of a result, an operation looks in its operand.
  Both sides are indices given coordinate by coordinate, and coordinate by coordinate they are the same number. -/

/-- Entry (b, t, g) of the first matrix product pairs, at position k of the sum, entry (b, t, k) of the token rows ... -/
theorem lhs_of_gates (b : Fin 64) (t : Fin 128) (g : Fin 768) (k : Fin 256) :
    lidx_main_v7 (ix3 b t g) k = ix3 b t k :=
  funext fun a => Fin.ext (by match a with | ⟨0, _⟩ => rfl | ⟨1, _⟩ => rfl | ⟨2, _⟩ => rfl)

/-- ... with entry (g, k) of the input weights. -/
theorem rhs_of_gates (b : Fin 64) (t : Fin 128) (g : Fin 768) (k : Fin 256) :
    ridx_main_v7 (ix3 b t g) k = ix2 g k :=
  funext fun a => Fin.ext (by match a with | ⟨0, _⟩ => rfl | ⟨1, _⟩ => rfl)

/-- The input bias, spread over all batches and times, is read at (b, t, g) at its entry g. -/
theorem bias_of_gates (b : Fin 64) (t : Fin 128) (g : Fin 768) :
    idx_main_v8 (idx_main_v9 (ix3 b t g)) = ix1 g :=
  funext fun a => Fin.ext (by match a with | ⟨0, _⟩ => rfl)

/-- The first third of the gate columns, read at column q, is gate column q (the reset position of q). -/
theorem third_lo (b : Fin 64) (t : Fin 128) (q : Fin 256) :
    idx_main_v11 (ix3 b t q) = ix3 b t (Cert.Spec.lo q) :=
  funext fun a => Fin.ext (by match a with | ⟨0, _⟩ => rfl | ⟨1, _⟩ => rfl | ⟨2, _⟩ => rfl)

/-- The second third, read at column q, is gate column 256 + q (the update position of q). -/
theorem third_mid (b : Fin 64) (t : Fin 128) (q : Fin 256) :
    idx_main_v12 (ix3 b t q) = ix3 b t (Cert.Spec.mid q) :=
  funext fun a => Fin.ext (by match a with | ⟨0, _⟩ => rfl | ⟨1, _⟩ => rfl | ⟨2, _⟩ => rfl)

/-- The last third, read at column q, is gate column 512 + q (the candidate position of q). -/
theorem third_hi (b : Fin 64) (t : Fin 128) (q : Fin 256) :
    idx_main_v13 (ix3 b t q) = ix3 b t (Cert.Spec.hi q) :=
  funext fun a => Fin.ext (by match a with | ⟨0, _⟩ => rfl | ⟨1, _⟩ => rfl | ⟨2, _⟩ => rfl)

/-- The first third of the hidden bias, spread over all batches and times and read at (b, t, q), is its entry q. -/
theorem hbias_lo (b : Fin 64) (t : Fin 128) (q : Fin 256) :
    idx_main_v14 (idx_main_v17 (idx_main_v18 (ix3 b t q))) = ix1 (Cert.Spec.lo q) :=
  funext fun a => Fin.ext (by match a with | ⟨0, _⟩ => rfl)

/-- The second third of the hidden bias, read the same way, is its entry 256 + q. -/
theorem hbias_mid (b : Fin 64) (t : Fin 128) (q : Fin 256) :
    idx_main_v15 (idx_main_v26 (idx_main_v27 (ix3 b t q))) = ix1 (Cert.Spec.mid q) :=
  funext fun a => Fin.ext (by match a with | ⟨0, _⟩ => rfl)

/-- The last third of the hidden bias, read the same way, is its entry 512 + q. -/
theorem hbias_hi (b : Fin 64) (t : Fin 128) (q : Fin 256) :
    idx_main_v16 (idx_main_v35 (idx_main_v36 (ix3 b t q))) = ix1 (Cert.Spec.hi q) :=
  funext fun a => Fin.ext (by match a with | ⟨0, _⟩ => rfl)

/-! ## The constant arrays

  The reference fills five arrays with the word of 1.0 (two for each logistic quotient, one for 1 - z). Every entry
  of each of them is the specification's number `one`. -/

theorem ones_a (i : S64x128x256.Idx) : val_main_v22 (F := Ideal) i = Cert.Spec.one := by
  rw [val_main_v22_apply, val_main_cst_apply]; rfl
theorem ones_b (i : S64x128x256.Idx) : val_main_v24 (F := Ideal) i = Cert.Spec.one := by
  rw [val_main_v24_apply, val_main_cst_1_apply]; rfl
theorem ones_c (i : S64x128x256.Idx) : val_main_v31 (F := Ideal) i = Cert.Spec.one := by
  rw [val_main_v31_apply, val_main_cst_2_apply]; rfl
theorem ones_d (i : S64x128x256.Idx) : val_main_v33 (F := Ideal) i = Cert.Spec.one := by
  rw [val_main_v33_apply, val_main_cst_3_apply]; rfl
theorem ones_e (i : S64x128x256.Idx) : val_main_v40 (F := Ideal) i = Cert.Spec.one := by
  rw [val_main_v40_apply, val_main_cst_4_apply]; rfl

/-! ## The stages, one entry at a time -/

/-- Gate pre-activations. Entry (b, t, g) of the product of all token rows with the input weights, plus the
    broadcast input bias, is (sum over k of row_k * w_{g,k}) + bi_g for the row of token (b, t): the product reads
    only that token's row and row g of the weights, and the bias is read at g. -/
theorem gate_apply (b : Fin 64) (t : Fin 128) (g : Fin 768) :
    val_main_v10 (F := Ideal) x0 x1 x2 x3 (ix3 b t g)
      = Cert.Spec.gateRow (tokenRow x0 x1 b t) (inW x2) (vec768 x3) g := by
  rw [val_main_v10_apply, val_main_v7_apply, val_main_v9_apply, val_main_v8_apply]
  simp only [lhs_of_gates, rhs_of_gates, bias_of_gates]
  rfl

/-- Reset gate. With a = a_q + bh_q (the first third of the pre-activations plus the first third of the hidden
    bias), the reference forms 1 / (1 + e^(-a)) with the word of 1.0 in both places; that quotient is logistic a. -/
theorem reset_apply (b : Fin 64) (t : Fin 128) (q : Fin 256) :
    val_main_v25 (F := Ideal) x0 x1 x2 x3 x4 (ix3 b t q)
      = Ideal.logistic (Cert.Spec.gateRow (tokenRow x0 x1 b t) (inW x2) (vec768 x3) (Cert.Spec.lo q)
          + x4 (ix1 (Cert.Spec.lo q))) := by
  rw [val_main_v25_apply, ones_b, val_main_v23_apply, ones_a, val_main_v21_apply, val_main_v20_apply,
    val_main_v19_apply, val_main_v11_apply, val_main_v18_apply, val_main_v17_apply, val_main_v14_apply,
    third_lo, hbias_lo, gate_apply]
  simp only [Ideal.hostDivf_def, Ideal.addf_def, Ideal.hostUnary_exp_def, Ideal.hostNegf_def, Ideal.negf_def]
  exact Cert.Spec.logistic_spelled _

/-- Update gate. The same quotient at a = a_{256+q} + bh_{256+q} (second thirds) is logistic a. -/
theorem update_apply (b : Fin 64) (t : Fin 128) (q : Fin 256) :
    val_main_v34 (F := Ideal) x0 x1 x2 x3 x4 (ix3 b t q)
      = Ideal.logistic (Cert.Spec.gateRow (tokenRow x0 x1 b t) (inW x2) (vec768 x3) (Cert.Spec.mid q)
          + x4 (ix1 (Cert.Spec.mid q))) := by
  rw [val_main_v34_apply, ones_d, val_main_v32_apply, ones_c, val_main_v30_apply, val_main_v29_apply,
    val_main_v28_apply, val_main_v12_apply, val_main_v27_apply, val_main_v26_apply, val_main_v15_apply,
    third_mid, hbias_mid, gate_apply]
  simp only [Ideal.hostDivf_def, Ideal.addf_def, Ideal.hostUnary_exp_def, Ideal.hostNegf_def, Ideal.negf_def]
  exact Cert.Spec.logistic_spelled _

/-- Candidate. The reference multiplies the reset gate by the last third of the hidden bias, adds the last third
    of the pre-activations and takes tanh: tanh (a_{512+q} + r_q * bh_{512+q}). -/
theorem candidate_apply (b : Fin 64) (t : Fin 128) (q : Fin 256) :
    val_main_v39 (F := Ideal) x0 x1 x2 x3 x4 (ix3 b t q)
      = Ideal.tanh (Cert.Spec.gateRow (tokenRow x0 x1 b t) (inW x2) (vec768 x3) (Cert.Spec.hi q)
          + Ideal.logistic (Cert.Spec.gateRow (tokenRow x0 x1 b t) (inW x2) (vec768 x3) (Cert.Spec.lo q)
              + x4 (ix1 (Cert.Spec.lo q))) * x4 (ix1 (Cert.Spec.hi q))) := by
  rw [val_main_v39_apply, val_main_v38_apply, val_main_v13_apply, val_main_v37_apply, reset_apply,
    val_main_v36_apply, val_main_v35_apply, val_main_v16_apply, third_hi, hbias_hi, gate_apply]
  rfl

/-- New hidden state. The reference subtracts the update gate from the word of 1.0 and multiplies by the
    candidate: h_q = (1 - z_q) * n_q, which is the specification's hidden state of the row of token (b, t). -/
theorem hidden_apply (b : Fin 64) (t : Fin 128) (q : Fin 256) :
    val_main_v42 (F := Ideal) x0 x1 x2 x3 x4 (ix3 b t q)
      = Cert.Spec.hiddenRow (tokenRow x0 x1 b t) (inW x2) (vec768 x3) (vec768 x4) q := by
  rw [val_main_v42_apply, val_main_v41_apply, ones_e, update_apply, candidate_apply]
  rfl

/-! ## Which entries the classifier product reads -/

/-- Entry (b, t, v) of the classifier product pairs, at position k of the sum, entry (b, t, k) of the hidden states ... -/
theorem lhs_of_logits (b : Fin 64) (t : Fin 128) (v : Fin 32000) (k : Fin 256) :
    lidx_main_v43 (ix3 b t v) k = ix3 b t k :=
  funext fun a => Fin.ext (by match a with | ⟨0, _⟩ => rfl | ⟨1, _⟩ => rfl | ⟨2, _⟩ => rfl)

/-- ... with entry (v, k) of the classifier weights. -/
theorem rhs_of_logits (b : Fin 64) (t : Fin 128) (v : Fin 32000) (k : Fin 256) :
    ridx_main_v43 (ix3 b t v) k = ix2 v k :=
  funext fun a => Fin.ext (by match a with | ⟨0, _⟩ => rfl | ⟨1, _⟩ => rfl)

/-- The classifier bias, spread over all batches and times, is read at (b, t, v) at its entry v. -/
theorem bias_of_logits (b : Fin 64) (t : Fin 128) (v : Fin 32000) :
    idx_main_v44 (idx_main_v45 (ix3 b t v)) = ix1 v :=
  funext fun a => Fin.ext (by match a with | ⟨0, _⟩ => rfl)

end stages

/-- Logit. Entry (b, t, v) of the product of all hidden states with the classifier weights, plus the broadcast
    classifier bias, is (sum over k of h_k * c_{v,k}) + d_v, where h is the hidden state of the row of token (b, t)
    (the previous lemma, used at every k of the sum), c_v is row v of the classifier weights and d_v its bias. -/
theorem reference_apply (x0 : (⟨S64x128, .i32⟩ : BufTy).Contents (Elt Ideal)) (x1 : (⟨S32000x256, .f32⟩ : BufTy).Contents (Elt Ideal))
    (x2 : (⟨S768x256, .f32⟩ : BufTy).Contents (Elt Ideal)) (x3 x4 : (⟨S768, .f32⟩ : BufTy).Contents (Elt Ideal))
    (x5 : (⟨S32000x256, .f32⟩ : BufTy).Contents (Elt Ideal)) (x6 : (⟨S32000, .f32⟩ : BufTy).Contents (Elt Ideal))
    (b : Fin 64) (t : Fin 128) (v : Fin 32000) :
    val_main_v46 (F := Ideal) x0 x1 x2 x3 x4 x5 x6 (ix3 b t v)
      = Cert.Spec.logitRow
          (Cert.Spec.hiddenRow (fun k => val_main_v6 (F := Ideal) x0 x1 (ix3 b t k)) (fun g k => x2 (ix2 g k))
            (fun g => x3 (ix1 g)) (fun g => x4 (ix1 g)))
          (fun k => x5 (ix2 v k)) (x6 (ix1 v)) := by
  rw [val_main_v46_apply, val_main_v43_apply, val_main_v45_apply, val_main_v44_apply]
  simp only [lhs_of_logits, rhs_of_logits, bias_of_logits, hidden_apply]
  rfl

end Cert.ReferenceIdeal.RefValue

end
-- ==== Proof.KernelRun.lean ====
/-
  The kernel program's run, with every buffer named at its end.

  The program is four stretches in a row: host operations, the first kernel's grid, the second kernel's grid, one
  closing host operation. Each stretch starts from the buffer contents the one before it left, so the contents at
  the end are a fold through the four: the launch memory, then the host operations' results written over it,
  then the first grid's output array at what its write-backs leave, then the second grid's, then the closing
  reshape. Every weakly fair execution terminates without a fault, and every buffer that lives for the whole
  program ends at that fold.
-/
import proofs.«177133_j71777493451434_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by
      -- the two grids are entered once each, in order: the pipelines met are 0 then 1
      show ([0, 1] : List (Fin 2)).Nodup
      decide)
    (O₀ := 0) (hL := fun _ _ => rfl) (G := fun _ => iprop(emp))
    (u₀ := initOf (Pipeline.cells cfgs cellOf_inj) (Pipeline.launchToks cfgs cellOf_inj))
    (hu₀ := by
      -- the launch element is the one the pipelines' staging cells are funded from; no core needs anything else
      have hemp : (BI.emp : sProp 𝕄) ⊢ bigSep Finset.univ (fun _ : Dev nD => (BI.emp : sProp 𝕄)) := by
        rw [BI.bigSep_emp_const]
      -- owning the launch element is, by definition, owning its image among the proof's resources
      have hsame : (ownU (initOf (Pipeline.cells cfgs cellOf_inj) (Pipeline.launchToks cfgs cellOf_inj)) : sProp 𝕄)
          ⊢ BI.own (emb₁ (initOf (Pipeline.cells (Pipeline.pin (pcfgs (F := F)) adm) cellOf_inj)
              (Pipeline.launchToks (Pipeline.pin (pcfgs (F := F)) adm) cellOf_inj))) := .rfl
      iintro Hown
      imodintro
      isplitl [Hown]
      · iapply hsame
        iexact Hown
      · iapply hemp
        iempintro)
    (T₀ := fun c => iprop(StableHlo.held (c : Thread nD τ) (Pipeline.ucRefs τ sig) (W0 m ρ c) ∗ R c)) (Tₙ := Tₙ m ρ)
    (hch := by
      -- each stretch is entered from exactly what the one before it left; after the closing host operation the
      -- buffers and the generator register are grouped apart from the (empty) debt
      refine ⟨fun _ => .rfl, fun _ => .rfl, fun _ => .rfl, fun _ => .rfl, fun c => ?_⟩
      dsimp only [Pipeline.Seg.post, hseg, Pipeline.HostSeg.ofOps]
      iintro ⟨Hbufs, Hreg, Hdebt⟩
      isplitr [Hdebt]
      · isplitl [Hbufs]
        · iexact Hbufs
        · iexact Hreg
      · iexact Hdebt)
    (hinit := by
      -- core by core: the launch deals every long-lived buffer at the launch memory, the generator register at its
      -- seed and an empty debt; the semaphores and the launch credit are not needed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdebt, -, Hreg, -⟩, -⟩
      imodintro
      isplitl [Hbufs]
      · iexact Hbufs
      isplitl [Hreg]
      · iexists _; iexact Hreg
      · iexists ∅; iexact Hdebt)
    (QY := fun c s => ∀ b ∈ Pipeline.ucRefs τ sig, s.mem (((c : Thread nD τ)).1, b) = W4 m ρ c b)
    (hfin := fun c s' => by
      -- holding every long-lived buffer at the last contents, a final state agrees with them buffer by buffer
      iintro ⟨⟨Hbufs, -⟩, Hstate⟩
      unfold StableHlo.held
      imodintro
      iapply (pointsTo_read_all (Pipeline.ucRefs τ sig) (fun b => (((c : Thread nD τ)).1, b)) (W4 m ρ c) s')
      isplitl [Hbufs]
      · iexact Hbufs
      · iexact Hstate)
    (hQ := fun s h => h)

end Cert.KernelIdeal.Run

end
-- ==== Proof.HostGlue.lean ====
/-
  The host operations around the two kernels, read at an entry.

  Before the first kernel the program looks the token ids up in the embedding table (a negative id counts from the
  end of the table), lays the 64 x 128 token rows out as 8192 rows, and transposes the two weight matrices; after
  the second kernel it lays the 8192 rows of logits back out as 64 x 128. None of this changes a number (a change
  of float format denotes the identity on the extended reals): each statement below says which entry of which
  argument an entry of a prepared array is.
-/
import proofs.«177133_j71777493451434_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostGlue

open Idealize.ShloMosaic Idealize.ShloMosaic.TcCoe Idealize.ShloMosaic.ValueIdx Idealize.SL.Sem Cert.KernelIdeal Cert.KernelIdeal.Gen

/-- The embedded tokens: entry (b, t, k) is entry k of the table row that token (b, t)'s id selects, an id below
    zero first moved up by the table's 32000 rows. -/
def embedded (ids : (⟨S64x128, .i32⟩ : BufTy).Contents (Elt Ideal)) (table : (⟨S32000x256, .f32⟩ : BufTy).Contents (Elt Ideal)) :
    (⟨S64x128x256, .f32⟩ : BufTy).Contents (Elt Ideal) :=
  Host.gather gather_S32000x256_S64x128x1_S64x128x256_2_0_n_n_0_2_1256 table
    (broadcastInDim S64x128x1 ![0, 1] bcast_S64x128_S64x128x1_0_1
      (select (cmpi .slt ids (broadcastInDim S64x128 ![] bcast_S_S64x128 (constantI S_ 32 0#32)))
        (addi ids (broadcastInDim S64x128 ![] bcast_S_S64x128 (constantI S_ 32 32000#32))) ids))

/-- Row r of the 8192 token rows is token (r / 128, r % 128); -/
def batchOf (r : Fin 8192) : Fin 64 := ⟨r.val / 128, by have := r.isLt; omega⟩
def timeOf (r : Fin 8192) : Fin 128 := ⟨r.val % 128, Nat.mod_lt _ (by decide)⟩
/-- and token (b, t) is row 128 b + t. -/
def rowOf (b : Fin 64) (t : Fin 128) : Fin 8192 := ⟨b.val * 128 + t.val, by have := b.isLt; have := t.isLt; omega⟩

/-! ## Changing the layout without changing a number

  A reshape keeps every number at the same position of the row-major (last coordinate fastest) enumeration, so to
  read a reshaped array at an entry is to find the entry of the operand with the same position. -/

/-- 8192 rows from 64 x 128 tokens. Entry (r, k) of the [8192, 256] layout sits at position 256 r + k; entry (b, t, k)
    of the [64, 128, 256] layout at 256 (128 b + t) + k. The two agree when b = r / 128 and t = r % 128, since
    128 (r / 128) + r % 128 = r. -/
theorem rows_apply {α : Type} (x : S64x128x256.Idx → α) (h : S64x128x256.ShapeCasts S8192x256) (r : Fin 8192) (k : Fin 256) :
    shapeCast S8192x256 x h (ix2 r k) = x (ix3 (batchOf r) (timeOf r) k) :=
  shapeCast_apply x h _ _ (by
    rw [Shape.rowMajor_val_three, Shape.rowMajor_val_two]
    show (r.val / 128 * 128 + r.val % 128) * 256 + k.val = r.val * 256 + k.val
    omega)

/-- 64 x 128 tokens from 8192 rows. Entry (b, t, v) of the [64, 128, 32000] layout and entry (128 b + t, v) of the
    [8192, 32000] layout both sit at position 32000 (128 b + t) + v. -/
theorem unrows_apply {α : Type} (x : S8192x32000.Idx → α) (h : S8192x32000.ShapeCasts S64x128x32000)
    (b : Fin 64) (t : Fin 128) (v : Fin 32000) :
    shapeCast S64x128x32000 x h (ix3 b t v) = x (ix2 (rowOf b t) v) :=
  shapeCast_apply x h _ _ (by
    rw [Shape.rowMajor_val_two, Shape.rowMajor_val_three]
    rfl)

variable (m : (ℓ : Loc nD τ sig) → Buf (Elt Ideal) ℓ) (ρ : Dev nD → PrngReg)

theorem tokens_apply (c : Dev nD) (r : Fin 8192) (k : Fin 256) :
    (V1 m ρ c main_v8 : S8192x256.Idx → EReal) (ix2 r k)
      = embedded (m ((c : Thread nD τ).loc main_arg0)) (m ((c : Thread nD τ).loc main_arg1)) (ix3 (batchOf r) (timeOf r) k) := by
  -- Run in order, the preparing operations leave here: the embedded tokens, laid out as 8192 rows of 256, then
  -- rewritten in the shorter float format.
  have e : (V1 m ρ c main_v8 : S8192x256.Idx → EReal)
      = truncf .bf16 (shapeCast S8192x256 (embedded (m ((c : Thread nD τ).loc main_arg0)) (m ((c : Thread nD τ).loc main_arg1)))
          shapeCasts_S64x128x256_S8192x256 : FVec Ideal S8192x256 .f32) bitsLt_bf16_f32 := by
    show StableHlo.after hostOps0 (W0 m ρ c) (Proc.devRef .tc main_v8) = _
    after_results
    rfl
  rw [e]
  -- The change of float format denotes the identity on the extended reals,
  refine (truncf_apply _ bitsLt_bf16_f32 _).trans ?_
  -- and row r of the 8192 rows is token (r / 128, r % 128).
  exact rows_apply _ _ r k

theorem inW_apply (c : Dev nD) (k : Fin 256) (g : Fin 768) :
    (V1 m ρ c main_v10 : S256x768.Idx → EReal) (ix2 k g) = (m ((c : Thread nD τ).loc main_arg2) : S768x256.Idx → EReal) (ix2 g k) := by
  -- Run in order, the preparing operations leave here: the input weights transposed, then rewritten in the shorter
  -- float format.
  have e : (V1 m ρ c main_v10 : S256x768.Idx → EReal)
      = truncf .bf16 (transpose S256x768 [1, 0] (m ((c : Thread nD τ).loc main_arg2) : S768x256.Idx → EReal)
          transposes_S768x256_S256x768_1_0 : FVec Ideal S256x768 .f32) bitsLt_bf16_f32 := by
    show StableHlo.after hostOps0 (W0 m ρ c) (Proc.devRef .tc main_v10) = _
    after_results
  rw [e]
  -- The change of float format denotes the identity,
  refine (truncf_apply _ bitsLt_bf16_f32 _).trans ?_
  -- and entry (k, g) of a transposed matrix is entry (g, k) of the matrix.
  exact transpose_ix2_apply _ _ k g

theorem clsW_apply (c : Dev nD) (k : Fin 256) (v : Fin 32000) :
    (V1 m ρ c main_v12 : S256x32000.Idx → EReal) (ix2 k v) = (m ((c : Thread nD τ).loc main_arg5) : S32000x256.Idx → EReal) (ix2 v k) := by
  -- The same for the classifier weights: transposed, then rewritten in the shorter float format.
  have e : (V1 m ρ c main_v12 : S256x32000.Idx → EReal)
      = truncf .bf16 (transpose S256x32000 [1, 0] (m ((c : Thread nD τ).loc main_arg5) : S32000x256.Idx → EReal)
          transposes_S32000x256_S256x32000_1_0 : FVec Ideal S256x32000 .f32) bitsLt_bf16_f32 := by
    show StableHlo.after hostOps0 (W0 m ρ c) (Proc.devRef .tc main_v12) = _
    after_results
  rw [e]
  refine (truncf_apply _ bitsLt_bf16_f32 _).trans ?_
  -- Entry (k, v) of the transposed matrix is entry (v, k) of the matrix.
  exact transpose_ix2_apply _ _ k v

theorem clsB_apply (c : Dev nD) (v : Fin 32000) :
    (V1 m ρ c main_v13 : S1x32000.Idx → EReal) (ix2 (0 : Fin 1) v) = (m ((c : Thread nD τ).loc main_arg6) : S32000.Idx → EReal) (ix1 v) := by
  -- Run in order, the preparing operations leave here the classifier bias laid out as one row of 32000.
  have e : (V1 m ρ c main_v13 : S1x32000.Idx → EReal)
      = shapeCast S1x32000 (m ((c : Thread nD τ).loc main_arg6) : S32000.Idx → EReal) shapeCasts_S32000_S1x32000 := by
    show StableHlo.after hostOps0 (W0 m ρ c) (Proc.devRef .tc main_v13) = _
    after_results
    rfl
  rw [e]
  -- Entry (0, v) of the one-row layout and entry v of the vector both sit at position v.
  exact shapeCast_a_1a_apply _ _ (0 : Fin 1) v

theorem inB_eq (c : Dev nD) : V1 m ρ c main_arg3 = m ((c : Thread nD τ).loc main_arg3) := by
  -- None of the preparing operations writes the input bias: one by one they leave it as launched.
  show StableHlo.after hostOps0 (W0 m ρ c) (Proc.devRef .tc main_arg3) = _
  after_results

theorem hidB_eq (c : Dev nD) : V1 m ρ c main_arg4 = m ((c : Thread nD τ).loc main_arg4) := by
  -- Nor does any of them write the hidden bias.
  show StableHlo.after hostOps0 (W0 m ρ c) (Proc.devRef .tc main_arg4) = _
  after_results

theorem result_apply (c : Dev nD) (b : Fin 64) (t : Fin 128) (v : Fin 32000) :
    (W4 m ρ c (Proc.devRef .tc main_v16) : S64x128x32000.Idx → EReal) (ix3 b t v)
      = (W3 m ρ c (Proc.devRef .tc main_v15) : S8192x32000.Idx → EReal) (ix2 (rowOf b t) v) := by
  -- The one operation after the second kernel lays its 8192 rows of logits out as 64 x 128.
  have e : (W4 m ρ c (Proc.devRef .tc main_v16) : S64x128x32000.Idx → EReal)
      = shapeCast S64x128x32000 (W3 m ρ c (Proc.devRef .tc main_v15) : S8192x32000.Idx → EReal)
          shapeCasts_S8192x32000_S64x128x32000 := by
    show StableHlo.after hostOps2 (W3 m ρ c) (Proc.devRef .tc main_v16) = _
    after_results
    rfl
  rw [e]
  -- Token (b, t) is row 128 b + t.
  exact unrows_apply _ _ b t v

end Cert.KernelIdeal.HostGlue

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Payloads.lean ====
/-
  The two kernel bodies' stored values, read at one entry, on the extended reals.

  The first body (the recurrent cell from a zero hidden state) loads a token block x [1024, 256], the input weights
  w [256, 768] (already transposed: entry (k, g)), the input bias bi [768] and the hidden bias bh [768], and stores a
  block h [1024, 256]. Its operations fall into two groups:
    * the gate block G = x · w + bi [1024, 768], whose entry (p, g) is gate pre-activation g of token row p
      (`gates`, `gates_apply`);
    * the cell, which reads G in three thirds of 256 columns and bh in three thirds of 256 entries:
      r = logistic (G_lo + bh_lo), z = logistic (G_mid + bh_mid), n = tanh (G_hi + r * bh_hi), h = (1 - z) * n
      (`resetGate`, `updateGate`, `candidate`, `newHidden` and their `_apply` lemmas).
  Every operation of the cell acts entry by entry, except the cuts and the repetition of a bias third down the rows,
  which only move entries: so entry (p, q) of h depends on G at (p, q), (p, 256 + q), (p, 512 + q) and on bh at
  q, 256 + q, 512 + q, hence on row p of x only. That is `gru_payload_apply`.

  The second body (the classifier) loads a hidden block h [512, 256], a weight block c [256, 3200] and a bias row
  d [1, 3200] and stores h · c + d (`logits`): entry (p, v) is the logit of token row p for vocabulary entry v of the
  block. That is `cls_payload_apply`.

  Nothing is rearranged: each side forms the same sums and products in the same order, so every step below is either
  "this operation acts entry by entry" (true by definition on the extended reals), "this layout step reads that entry"
  (a lemma about the step), or "a product into a zero accumulator is the sum over the contracted axis".
-/
import proofs.«177133_j71777493451434_2_alg».proof.Proof.Gen.KernelIdeal.Skeleton
import proofs.«177133_j71777493451434_2_alg».proof.Proof.Spec
import proofs.«177133_j71777493451434_2_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Payloads

open Idealize.ShloMosaic Idealize.ShloMosaic.ValueIdx Cert.KernelIdeal Cert.KernelIdeal.Gen

/-! ## Layout steps read at one entry -/

section Layout
variable {α : Type}

/-- A vector b of n entries, viewed as the one row of a [1, n] block and then repeated down a rows, reads at
    (p, c) the entry b_c, whatever the row p: the repetition reads the one row, and the one row reads b. -/
theorem rowOfVector_apply {a n : ℕ} (b : (⟨1, ![n]⟩ : Shape).Idx → α)
    (hc : (⟨1, ![n]⟩ : Shape).ShapeCasts ⟨2, ![1, n]⟩) (hb : (⟨2, ![1, n]⟩ : Shape).Broadcasts ⟨2, ![a, n]⟩)
    (p : Fin a) (c : Fin n) :
    broadcastTo ⟨2, ![a, n]⟩ (shapeCast ⟨2, ![1, n]⟩ b hc) hb (ix2 p c) = b (ix1 c) :=
  (broadcastTo_1b_ab_apply _ hb p c).trans (shapeCast_a_1a_apply b hc 0 c)

/-- A vector cut from position o on reads, at j, the source at k = o + j. -/
theorem slice1_apply {n m : ℕ} (o : ℕ) (b : (⟨1, ![n]⟩ : Shape).Idx → α) (h : (⟨1, ![n]⟩ : Shape).Slices ![o] ⟨1, ![m]⟩)
    (j : Fin m) (k : Fin n) (hk : k.val = o + j.val) :
    extractStridedSlice ⟨1, ![m]⟩ ![o] b h (ix1 j) = b (ix1 k) :=
  extractStridedSlice_apply _ _ _ _ _ (fun ax => by
    match ax with
    | ⟨0, _⟩ => exact hk)

end Layout

/-! ## The first body: the gate pre-activations -/

/-- The block of gate pre-activations of 1024 token rows: the token block x [1024, 256] times the weight block
    w [256, 768] into a zero accumulator, plus the input bias bi [768] repeated down the rows. -/
def gates (x : FVec Ideal S1024x256 .bf16) (w : FVec Ideal S256x768 .bf16) (bi : FVec Ideal S768 .f32) :
    FVec Ideal S1024x768 .f32 :=
  addf
    (matmul dot_S1024x256_S256x768_S1024x768_1_0_0_1_n_n none (shapeCast S1024x256 x shapeCasts_S1024x256_S1024x256)
      (shapeCast S256x768 w shapeCasts_S256x768_S256x768) (constant S1024x768 .f32 0x00000000#32))
    (broadcastTo S1024x768 (shapeCast S1x768 bi shapeCasts_S768_S1x768) broadcasts_S1x768_S1024x768)

/-- Entry (p, g) of the gate block is gate pre-activation g of token row p: it depends on row p of x, on column g of
    w (so w is read transposed: entry (k, g)) and on bi_g only. -/
theorem gates_apply (x : FVec Ideal S1024x256 .bf16) (w : FVec Ideal S256x768 .bf16) (bi : FVec Ideal S768 .f32)
    (p : Fin 1024) (g : Fin 768) :
    gates x w bi (ix2 p g)
      = Cert.Spec.gateRow (fun k => x (ix2 p k)) (fun g k => w (ix2 k g)) (fun g => bi (ix1 g)) g := by
  unfold gates Cert.Spec.gateRow
  -- a cast to the same shape changes nothing
  rw [shapeCast_self, shapeCast_self]
  -- a sum of two blocks is taken entry by entry
  refine congrArg₂ (· + ·) ?_ ?_
  · -- the product's dimension numbers are the plain ones (left axis 1 against right axis 0, no batch), so entry
    -- (p, g) of the product into zero is the sum over k of x (p, k) * w (k, g)
    exact Cert.LibPlainDot.matmul_zero_apply none x w p g
  · -- the bias row, repeated down the rows, reads bi_g
    exact rowOfVector_apply bi _ _ p g

/-! ## The first body: the cell, from a gate block and the hidden bias

The 768 gate columns are read in three thirds of 256: column q of the first third is gate q (reset), of the second
gate 256 + q (update), of the last gate 512 + q (candidate); the hidden bias is cut the same way, and each third of it
is repeated down the 1024 rows. -/

/-- The third of the hidden bias bh [768] that starts at o, viewed as one row and repeated down the 1024 rows, reads
    at (p, q) the entry bh_k with k = o + q: the repetition reads the row's entry q, which is entry q of the cut. -/
theorem biasThird_apply (o : ℕ) (bh : FVec Ideal S768 .f32) (hs : S768.Slices ![o] S256)
    (p : Fin 1024) (q : Fin 256) (k : Fin 768) (hk : k.val = o + q.val) :
    broadcastTo S1024x256 (shapeCast S1x256 (extractStridedSlice S256 ![o] bh hs) shapeCasts_S256_S1x256)
        broadcasts_S1x256_S1024x256 (ix2 p q) = bh (ix1 k) :=
  (rowOfVector_apply _ shapeCasts_S256_S1x256 broadcasts_S1x256_S1024x256 p q).trans (slice1_apply o bh hs q k hk)

/-- The reset gates r of a gate block G [1024, 768] and hidden bias bh: the logistic function of the first third of
    G plus the first third of bh. -/
def resetGate (G : FVec Ideal S1024x768 .f32) (bh : FVec Ideal S768 .f32) : FVec Ideal S1024x256 .f32 :=
  logistic (addf (extractStridedSlice S1024x256 ![0, 0] G slices_S1024x768_o0_0_S1024x256)
    (broadcastTo S1024x256 (shapeCast S1x256 (extractStridedSlice S256 ![0] bh slices_S768_o0_S256) shapeCasts_S256_S1x256)
      broadcasts_S1x256_S1024x256))

/-- The update gates z: the logistic function of the second third of G plus the second third of bh. -/
def updateGate (G : FVec Ideal S1024x768 .f32) (bh : FVec Ideal S768 .f32) : FVec Ideal S1024x256 .f32 :=
  logistic (addf (extractStridedSlice S1024x256 ![0, 256] G slices_S1024x768_o0_256_S1024x256)
    (broadcastTo S1024x256 (shapeCast S1x256 (extractStridedSlice S256 ![256] bh slices_S768_o256_S256) shapeCasts_S256_S1x256)
      broadcasts_S1x256_S1024x256))

/-- The candidate states n: tanh of the last third of G plus r times the last third of bh. -/
def candidate (G : FVec Ideal S1024x768 .f32) (bh : FVec Ideal S768 .f32) : FVec Ideal S1024x256 .f32 :=
  tanh (addf (extractStridedSlice S1024x256 ![0, 512] G slices_S1024x768_o0_512_S1024x256)
    (mulf (resetGate G bh)
      (broadcastTo S1024x256 (shapeCast S1x256 (extractStridedSlice S256 ![512] bh slices_S768_o512_S256) shapeCasts_S256_S1x256)
        broadcasts_S1x256_S1024x256)))

/-- The new hidden block h = (1 - z) * n, with 1 the splat of the word of 1.0, stored in the narrower format (which
    on the extended reals changes nothing). -/
def newHidden (G : FVec Ideal S1024x768 .f32) (bh : FVec Ideal S768 .f32) : FVec Ideal S1024x256 .bf16 :=
  truncf .bf16
    (mulf (subf (broadcast S1024x256 (Scalar.ofBits (F := Ideal) .f32 0x3F800000#32)) (updateGate G bh)) (candidate G bh))
    bitsLt_bf16_f32

/-- r at (p, q) is logistic (G (p, q) + bh_q): the logistic function and the sum act entry by entry, column q of the
    first third is column 0 + q of G, and the repeated bias third reads bh at 0 + q. -/
theorem resetGate_apply (G : FVec Ideal S1024x768 .f32) (bh : FVec Ideal S768 .f32) (p : Fin 1024) (q : Fin 256) :
    resetGate G bh (ix2 p q) = Ideal.logistic (G (ix2 p (Cert.Spec.lo q)) + bh (ix1 (Cert.Spec.lo q))) := by
  have hk : (Cert.Spec.lo q).val = 0 + q.val := (Nat.zero_add _).symm
  unfold resetGate
  exact congrArg Ideal.logistic (congrArg₂ (· + ·)
    (slice2_axis1_apply 0 G slices_S1024x768_o0_0_S1024x256 p q (Cert.Spec.lo q) hk)
    (biasThird_apply 0 bh slices_S768_o0_S256 p q (Cert.Spec.lo q) hk))

/-- z at (p, q) is logistic (G (p, 256 + q) + bh_{256 + q}). -/
theorem updateGate_apply (G : FVec Ideal S1024x768 .f32) (bh : FVec Ideal S768 .f32) (p : Fin 1024) (q : Fin 256) :
    updateGate G bh (ix2 p q) = Ideal.logistic (G (ix2 p (Cert.Spec.mid q)) + bh (ix1 (Cert.Spec.mid q))) := by
  have hk : (Cert.Spec.mid q).val = 256 + q.val := rfl
  unfold updateGate
  exact congrArg Ideal.logistic (congrArg₂ (· + ·)
    (slice2_axis1_apply 256 G slices_S1024x768_o0_256_S1024x256 p q (Cert.Spec.mid q) hk)
    (biasThird_apply 256 bh slices_S768_o256_S256 p q (Cert.Spec.mid q) hk))

/-- n at (p, q) is tanh (G (p, 512 + q) + r (p, q) * bh_{512 + q}): tanh, the sum and the product act entry by
    entry. -/
theorem candidate_apply (G : FVec Ideal S1024x768 .f32) (bh : FVec Ideal S768 .f32) (p : Fin 1024) (q : Fin 256) :
    candidate G bh (ix2 p q)
      = Ideal.tanh (G (ix2 p (Cert.Spec.hi q)) + resetGate G bh (ix2 p q) * bh (ix1 (Cert.Spec.hi q))) := by
  have hk : (Cert.Spec.hi q).val = 512 + q.val := rfl
  unfold candidate
  exact congrArg Ideal.tanh (congrArg₂ (· + ·)
    (slice2_axis1_apply 512 G slices_S1024x768_o0_512_S1024x256 p q (Cert.Spec.hi q) hk)
    (congrArg (resetGate G bh (ix2 p q) * ·) (biasThird_apply 512 bh slices_S768_o512_S256 p q (Cert.Spec.hi q) hk)))

/-- h at (p, q) is (1 - z (p, q)) * n (p, q), written out over G and bh: the product and the difference act entry by
    entry, the splat of the word of 1.0 reads that word's number everywhere, and the change of format is the
    identity on the extended reals. It depends on G at the three columns q, 256 + q, 512 + q of row p only. -/
theorem newHidden_apply (G : FVec Ideal S1024x768 .f32) (bh : FVec Ideal S768 .f32) (p : Fin 1024) (q : Fin 256) :
    newHidden G bh (ix2 p q)
      = (Cert.Spec.one - Ideal.logistic (G (ix2 p (Cert.Spec.mid q)) + bh (ix1 (Cert.Spec.mid q))))
          * Ideal.tanh (G (ix2 p (Cert.Spec.hi q))
              + Ideal.logistic (G (ix2 p (Cert.Spec.lo q)) + bh (ix1 (Cert.Spec.lo q))) * bh (ix1 (Cert.Spec.hi q))) := by
  unfold newHidden
  show (Cert.Spec.one - updateGate G bh (ix2 p q)) * candidate G bh (ix2 p q) = _
  rw [updateGate_apply, candidate_apply, resetGate_apply]

/-- The first body's stored value is the cell applied to the gate block of its loaded blocks: the body's operations,
    one after the other, are exactly these definitions. -/
theorem k0_pay1_eq (x0 : Vec Ideal S1024x256 .bf16) (x1 : Vec Ideal S256x768 .bf16) (x2 x3 : Vec Ideal S768 .f32) :
    k0_pay1 (F := Ideal) x0 x1 x2 x3 = newHidden (gates x0 x1 x2) x3 := rfl

/-- THE FIRST BODY AT ONE ENTRY: its stored value at row p, column q is entry q of the new hidden state of token row
    p of the loaded block x0, with the loaded weights x1 read transposed, the input bias x2 and the hidden bias x3.
    The stored value is the cell of the gate block; the cell at (p, q) reads the gate block at the three columns
    q, 256 + q, 512 + q of row p; and each of those entries is a gate pre-activation of row p. What is left is the
    specification's own formula, spelled the same way. -/
theorem gru_payload_apply (x0 : Vec Ideal S1024x256 .bf16) (x1 : Vec Ideal S256x768 .bf16) (x2 x3 : Vec Ideal S768 .f32)
    (p : Fin 1024) (q : Fin 256) :
    k0_pay1 (F := Ideal) x0 x1 x2 x3 (ix2 p q)
      = Cert.Spec.hiddenRow (fun k => x0 (ix2 p k)) (fun g k => x1 (ix2 k g)) (fun g => x2 (ix1 g)) (fun g => x3 (ix1 g)) q := by
  -- the stored value is the cell of the gate block; the cell at (p, q) over the gate block's entries; each of the
  -- three gate entries it reads (columns 256 + q, 512 + q and q) is that gate's pre-activation of row p
  rw [k0_pay1_eq, newHidden_apply, gates_apply, gates_apply, gates_apply]
  -- and this is the specification's formula, term for term
  rfl

/-! ## The second body: the classifier -/

/-- The block of logits of 512 token rows: the hidden block h [512, 256] times the weight block c [256, 3200] into a
    zero accumulator, plus the bias row d [1, 3200] repeated down the rows. -/
def logits (h : FVec Ideal S512x256 .bf16) (c : FVec Ideal S256x3200 .bf16) (d : FVec Ideal S1x3200 .f32) :
    FVec Ideal S512x3200 .f32 :=
  addf
    (matmul dot_S512x256_S256x3200_S512x3200_1_0_0_1_n_n none (shapeCast S512x256 h shapeCasts_S512x256_S512x256)
      (shapeCast S256x3200 c shapeCasts_S256x3200_S256x3200) (constant S512x3200 .f32 0x00000000#32))
    (broadcastTo S512x3200 (shapeCast S1x3200 d shapeCasts_S1x3200_S1x3200) broadcasts_S1x3200_S512x3200)

/-- Entry (p, v) of the logit block is the logit of token row p for vocabulary entry v: it depends on row p of h, on
    column v of c and on entry v of the bias row only. -/
theorem logits_apply (h : FVec Ideal S512x256 .bf16) (c : FVec Ideal S256x3200 .bf16) (d : FVec Ideal S1x3200 .f32)
    (p : Fin 512) (v : Fin 3200) :
    logits h c d (ix2 p v)
      = Cert.Spec.logitRow (fun k => h (ix2 p k)) (fun k => c (ix2 k v)) (d (ix2 (0 : Fin 1) v)) := by
  unfold logits Cert.Spec.logitRow
  -- the three casts are to the same shape and change nothing
  rw [shapeCast_self, shapeCast_self, shapeCast_self]
  -- a sum of two blocks is taken entry by entry
  refine congrArg₂ (· + ·) ?_ ?_
  · -- plain dimension numbers again: entry (p, v) of the product into zero is the sum over k of h (p, k) * c (k, v)
    exact Cert.LibPlainDot.matmul_zero_apply none h c p v
  · -- the one bias row, repeated down the rows, reads its entry v
    exact broadcastTo_1b_ab_apply d broadcasts_S1x3200_S512x3200 p v

/-- The second body's stored value is the logit block of its loaded blocks: the body's operations are exactly that
    definition. -/
theorem k1_pay1_eq (x0 : Vec Ideal S512x256 .bf16) (x1 : Vec Ideal S256x3200 .bf16) (x2 : Vec Ideal S1x3200 .f32) :
    k1_pay1 (F := Ideal) x0 x1 x2 = logits x0 x1 x2 := rfl

/-- THE SECOND BODY AT ONE ENTRY: its stored value at row p, column q is the logit of row p of the loaded hidden block
    x0 against column q of the loaded weight block x1, plus entry q of the loaded bias row x2. -/
theorem cls_payload_apply (x0 : Vec Ideal S512x256 .bf16) (x1 : Vec Ideal S256x3200 .bf16) (x2 : Vec Ideal S1x3200 .f32)
    (p : Fin 512) (q : Fin 3200) :
    k1_pay1 (F := Ideal) x0 x1 x2 (ix2 p q)
      = Cert.Spec.logitRow (fun k => x0 (ix2 p k)) (fun k => x1 (ix2 k q)) (x2 (ix2 (0 : Fin 1) q)) := by
  -- the stored value is the logit block, and its entry (p, q) is the logit
  rw [k1_pay1_eq, logits_apply]

end Cert.KernelIdeal.Payloads

end
-- ==== Proof.HiddenArray.lean ====
/-
  The array the first kernel leaves: every row's new hidden state.

  The token array has 8192 rows of 256 numbers. The kernel runs over a grid of 8 points; point i is handed rows
  1024 i, ..., 1024 i + 1023 of the token array (a block of 1024 rows by all 256 columns), together with the WHOLE
  transposed weight matrix (256 by 768) and the two WHOLE bias vectors (768 each), and writes rows
  1024 i, ..., 1024 i + 1023 of the output array. Entry (p, q) of the block it writes is the hidden-state formula of
  row p of ITS token block; and row p of that block is row 1024 i + p of the token array. So every point writes the
  restriction, to its own rows, of ONE function of the four entry arrays:

      (r, q)  |->  hiddenRow (row r of the tokens) (the weights) (the two biases) q .

  Row r lies in the block of point r / 1024 (because 1024 (r / 1024) <= r < 1024 (r / 1024) + 1024) and r / 1024 < 8,
  so the eight blocks cover the array, and the array ends holding that function at every entry, whatever it and the
  inputs held when the kernel was entered.
-/
import proofs.«177133_j71777493451434_2_alg».proof.Proof.Gen.KernelIdeal.Frame
import proofs.«177133_j71777493451434_2_alg».proof.Proof.Payloads
import proofs.«177133_j71777493451434_2_alg».proof.Proof.Spec
import Idealize.ShloMosaic.Lib.Pipeline.Value
import Idealize.ShloMosaic.Lib.ValueIdx

set_option maxRecDepth 16384

noncomputable section

open scoped BigOperators

namespace Cert.KernelIdeal.HiddenArray

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ## The one function every block is a piece of -/

/-- The whole output array as a function of the four entry arrays: entry (r, q) is the hidden-state formula of row r
    of the token array X, with the transposed weights W (entry (k, g) is weight g of input k) and the biases bi, bh.
    Only row r of X enters; all of W, bi and bh do. -/
def hiddenArray (X : S8192x256.Idx → EReal) (W : S256x768.Idx → EReal) (bi bh : S768.Idx → EReal) : S8192x256.Idx → EReal :=
  fun j => Cert.Spec.hiddenRow (fun k => X (ix2 (⟨(j 0).val, idx2_lt0 j⟩ : Fin 8192) k)) (fun g k => W (ix2 k g))
    (fun g => bi (ix1 g)) (fun g => bh (ix1 g)) (⟨(j 1).val, idx2_lt1 j⟩ : Fin 256)

/-- The function at an index whose coordinates are known: row r, column q. -/
theorem hiddenArray_at (X : S8192x256.Idx → EReal) (W : S256x768.Idx → EReal) (bi bh : S768.Idx → EReal)
    (j : S8192x256.Idx) (r : Fin 8192) (q : Fin 256) (h0 : (j 0).val = r.val) (h1 : (j 1).val = q.val) :
    hiddenArray X W bi bh j
      = Cert.Spec.hiddenRow (fun k => X (ix2 r k)) (fun g k => W (ix2 k g)) (fun g => bi (ix1 g)) (fun g => bh (ix1 g)) q := by
  have e0 : (⟨(j 0).val, idx2_lt0 j⟩ : Fin 8192) = r := Fin.ext h0
  have e1 : (⟨(j 1).val, idx2_lt1 j⟩ : Fin 256) = q := Fin.ext h1
  unfold hiddenArray
  rw [e0, e1]

/-- The hidden-state formula depends only on its four arguments: equal rows, weights and biases give equal values. -/
theorem hiddenRow_congr {x x' : Fin 256 → EReal} {w w' : Fin 768 → Fin 256 → EReal} {bi bi' bh bh' : Fin 768 → EReal}
    (hx : x = x') (hw : w = w') (hbi : bi = bi') (hbh : bh = bh') (q : Fin 256) :
    Cert.Spec.hiddenRow x w bi bh q = Cert.Spec.hiddenRow x' w' bi' bh' q := by
  subst hx hw hbi hbh; rfl

/-! ## Where each point's blocks sit -/

/-- The body loads and stores whole blocks: rectangles at offset zero on every axis. The offsets of such a rectangle of
    rank 2, as the constant-zero function … -/
theorem zero_offsets2 : (![0, 0] : Fin 2 → Nat) = fun _ => 0 := funext fun a => by fin_cases a <;> rfl
/-- … and of rank 1. -/
theorem zero_offsets1 : (![0] : Fin 1 → Nat) = fun _ => 0 := funext fun a => by fin_cases a <;> rfl

/-- The five index maps, decided over the eight grid points: at point t the token block and the output block are block
    (t, 0) of their arrays, i.e. rows 1024 t onward and all columns; the weight block is block (0, 0) and each bias
    block is block 0, i.e. the whole of their arrays at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 1) = 0
    ∧ win0_4.index t (0 : Fin 2) = t.val ∧ win0_4.index t (1 : Fin 2) = 0 :=
  (by decide +kernel : ∀ t : Fin grid0.N, _)

/-- Entry (p, k) of point t's token block is entry (1024 t + p, k) of the token array: on each axis an element of a
    block sits at (block index) * (block size) + (its coordinate in the block); here that is t * 1024 + p and
    0 * 256 + k. -/
theorem token_block_apply (c : Dev nD) (t : Fin cfg0.N) (p : Fin 1024) (k : Fin 256) (r : Fin 8192)
    (hr : r.val = t.val * 1024 + p.val) :
    (iblk0 V c 0 t : S1024x256.Idx → EReal) (ix2 p k) = (V c main_v8 : S8192x256.Idx → EReal) (ix2 r k) := by
  obtain ⟨e0, e1, -⟩ := block_indices t
  unfold iblk0
  rw [View.read_apply]
  show (V c main_v8 : S8192x256.Idx → EReal) (((cfg0.win 0).blk t).view.emb (ix2 p k)) = (V c main_v8 : S8192x256.Idx → EReal) (ix2 r k)
  refine congrArg _ (funext fun a => Fin.ext ?_)
  match a with
  | ⟨0, _⟩ => show win0_0.index t (0 : Fin 2) * 1024 + 1 * p.val = r.val; omega
  | ⟨1, _⟩ => show win0_0.index t (1 : Fin 2) * 256 + 1 * k.val = k.val; omega

/-- Entry (k, g) of point t's weight block is entry (k, g) of the weight array: the block is the whole array (block
    index 0 on both axes), at every point. -/
theorem weight_block_apply (c : Dev nD) (t : Fin cfg0.N) (k : Fin 256) (g : Fin 768) :
    (iblk0 V c 1 t : S256x768.Idx → EReal) (ix2 k g) = (V c main_v10 : S256x768.Idx → EReal) (ix2 k g) := by
  obtain ⟨-, -, e2, e3, -⟩ := block_indices t
  unfold iblk0
  rw [View.read_apply]
  show (V c main_v10 : S256x768.Idx → EReal) (((cfg0.win 1).blk t).view.emb (ix2 k g)) = (V c main_v10 : S256x768.Idx → EReal) (ix2 k g)
  refine congrArg _ (funext fun a => Fin.ext ?_)
  match a with
  | ⟨0, _⟩ => show win0_1.index t (0 : Fin 2) * 256 + 1 * k.val = k.val; omega
  | ⟨1, _⟩ => show win0_1.index t (1 : Fin 2) * 768 + 1 * g.val = g.val; omega

/-- Entry g of point t's input-bias block is entry g of the input-bias vector: the block is the whole vector. -/
theorem input_bias_block_apply (c : Dev nD) (t : Fin cfg0.N) (g : Fin 768) :
    (iblk0 V c 2 t : S768.Idx → EReal) (ix1 g) = (V c main_arg3 : S768.Idx → EReal) (ix1 g) := by
  obtain ⟨-, -, -, -, e4, -⟩ := block_indices t
  unfold iblk0
  rw [View.read_apply]
  show (V c main_arg3 : S768.Idx → EReal) (((cfg0.win 2).blk t).view.emb (ix1 g)) = (V c main_arg3 : S768.Idx → EReal) (ix1 g)
  refine congrArg _ (funext fun a => Fin.ext ?_)
  match a with
  | ⟨0, _⟩ => show win0_2.index t (0 : Fin 1) * 768 + 1 * g.val = g.val; omega

/-- Entry g of point t's hidden-bias block is entry g of the hidden-bias vector: the block is the whole vector. -/
theorem hidden_bias_block_apply (c : Dev nD) (t : Fin cfg0.N) (g : Fin 768) :
    (iblk0 V c 3 t : S768.Idx → EReal) (ix1 g) = (V c main_arg4 : S768.Idx → EReal) (ix1 g) := by
  obtain ⟨-, -, -, -, -, e5, -⟩ := block_indices t
  unfold iblk0
  rw [View.read_apply]
  show (V c main_arg4 : S768.Idx → EReal) (((cfg0.win 3).blk t).view.emb (ix1 g)) = (V c main_arg4 : S768.Idx → EReal) (ix1 g)
  refine congrArg _ (funext fun a => Fin.ext ?_)
  match a with
  | ⟨0, _⟩ => show win0_3.index t (0 : Fin 1) * 768 + 1 * g.val = g.val; omega

/-! ## What a point writes back -/

/-- Point t writes back block t of the one function: entry (p, q) of what the body leaves is the hidden-state formula of
    row p of the point's token block with the point's weight and bias blocks; row p of that block is row 1024 t + p of
    the token array, the weight and bias blocks are the whole arrays, and entry (p, q) of the output block sits at
    (1024 t + p, q) of the output array, where the function is the same formula of the same row. -/
theorem flushed_eq (c : Dev nD) (t : Fin cfg0.N) :
    (dat0 (F := Ideal) V c).flushed 4 t
      = ((cfg0.win 4).blk t).view.read (Elt Ideal) (hiddenArray (V c main_v8) (V c main_v10) (V c main_arg3) (V c main_arg4)) := by
  show (cfg0.win 4).cut (grid0.coords t) ((dat0 (F := Ideal) V c).after 4 t) = _
  rw [after0_4]
  unfold out0_4
  rw [View.canon_unit_zero zero_offsets2]
  simp only [View.ld_unit_zero (S := S1024x256) zero_offsets2, View.ld_unit_zero (S := S256x768) zero_offsets2,
    View.ld_unit_zero (S := S768) zero_offsets1]
  funext j
  obtain ⟨p, q, rfl⟩ : ∃ (p : Fin 1024) (q : Fin 256), j = ix2 p q := ⟨j 0, j 1, eq_ix2 j⟩
  have hp : p.val < 1024 := p.isLt
  have ht : t.val < 8 := lt_of_lt_of_eq t.isLt N_0
  obtain ⟨-, -, -, -, -, -, e6, e7⟩ := block_indices t
  show k0_pay1 (F := Ideal) (iblk0 V c 0 t) (iblk0 V c 1 t) (iblk0 V c 2 t) (iblk0 V c 3 t) (ix2 p q)
    = hiddenArray (V c main_v8) (V c main_v10) (V c main_arg3) (V c main_arg4) (((cfg0.win 4).blk t).view.emb (ix2 p q))
  refine (Payloads.gru_payload_apply (iblk0 V c 0 t) (iblk0 V c 1 t) (iblk0 V c 2 t) (iblk0 V c 3 t) p q).trans ?_
  refine (hiddenRow_congr
    (funext fun k => token_block_apply V c t p k ⟨t.val * 1024 + p.val, by omega⟩ rfl)
    (funext fun g => funext fun k => weight_block_apply V c t k g)
    (funext fun g => input_bias_block_apply V c t g)
    (funext fun g => hidden_bias_block_apply V c t g) q).trans ?_
  refine (hiddenArray_at (V c main_v8) (V c main_v10) (V c main_arg3) (V c main_arg4) _ ⟨t.val * 1024 + p.val, by omega⟩ q ?_ ?_).symm
  · show win0_4.index t (0 : Fin 2) * 1024 + 1 * p.val = t.val * 1024 + p.val; omega
  · show win0_4.index t (1 : Fin 2) * 256 + 1 * q.val = q.val; omega

/-! ## The blocks cover the array -/

/-- An index of the output array lies in point t's block iff, on each axis, its coordinate is in the block's range
    (block index) * (block size), ..., (block index) * (block size) + (block size) - 1. -/
theorem mem_block (t : Fin cfg0.N) (i : S8192x256.Idx) :
    i ∈ ((cfg0.win 4).blk t).view.set
      ↔ ∀ a : Fin 2, win0_4.index t a * S1024x256.size a ≤ (i a).val ∧ (i a).val < win0_4.index t a * S1024x256.size a + S1024x256.size a := by
  show i ∈ ((View.whole main_v14).slice (win0_4.rect t)).set ↔ _
  rw [View.set_slice_whole, Rect.mem_set_unit]
  exact Iff.rfl

/-- Every index (r, q) of the output array lies in the block of the point r / 1024: that is a grid point because
    r < 8192 = 8 * 1024, its rows are 1024 (r / 1024), ..., 1024 (r / 1024) + 1023, which hold r, and its columns are
    all 256. Every point writes its block back. -/
theorem blocks_cover (i : S8192x256.Idx) :
    ∃ t : Fin cfg0.N, (cfg0.win 4).flush t = true ∧ i ∈ ((cfg0.win 4).blk t).view.set := by
  have hi0 : (i 0).val < 8192 := idx2_lt0 i
  have hi1 : (i 1).val < 256 := idx2_lt1 i
  have hN : cfg0.N = 8 := N_0
  have hlt : (i 0).val / 1024 < cfg0.N := by rw [hN]; omega
  refine ⟨⟨(i 0).val / 1024, hlt⟩, flush0_4 _, ?_⟩
  rw [mem_block]
  obtain ⟨-, -, -, -, -, -, e6, e7⟩ := block_indices ⟨(i 0).val / 1024, hlt⟩
  have e6' : win0_4.index ⟨(i 0).val / 1024, hlt⟩ (0 : Fin 2) = (i 0).val / 1024 := e6
  intro a
  match a with
  | ⟨0, _⟩ =>
    show win0_4.index ⟨(i 0).val / 1024, hlt⟩ (0 : Fin 2) * 1024 ≤ (i 0).val
      ∧ (i 0).val < win0_4.index ⟨(i 0).val / 1024, hlt⟩ (0 : Fin 2) * 1024 + 1024
    omega
  | ⟨1, _⟩ =>
    show win0_4.index ⟨(i 0).val / 1024, hlt⟩ (1 : Fin 2) * 256 ≤ (i 1).val
      ∧ (i 1).val < win0_4.index ⟨(i 0).val / 1024, hlt⟩ (1 : Fin 2) * 256 + 256
    omega

/-! ## The array after the kernel -/

/-- The output array ends holding the one function of the entry arrays: each point writes back its block of that
    function and the blocks cover the array, so no entry keeps what it held before. -/
theorem hidden_array (c : Dev nD) :
    (dat0 (F := Ideal) V c).arrAt 4 cfg0.N = hiddenArray (V c main_v8) (V c main_v10) (V c main_arg3) (V c main_arg4) :=
  (dat0 (F := Ideal) V c).arrAt_eq_of_cover 4 (hiddenArray (V c main_v8) (V c main_v10) (V c main_arg3) (V c main_arg4))
    (fun t _ => flushed_eq V c t) blocks_cover

/-- Entry (r, q) of the output array after the kernel is the hidden-state formula of row r of the token array, with the
    transposed weights and the two biases as the kernel found them. -/
theorem hidden_array_apply (c : Dev nD) (r : Fin 8192) (q : Fin 256) :
    ((dat0 (F := Ideal) V c).arrAt 4 cfg0.N : S8192x256.Idx → EReal) (ix2 r q)
      = Cert.Spec.hiddenRow (fun k => (V c main_v8 : S8192x256.Idx → EReal) (ix2 r k))
          (fun g k => (V c main_v10 : S256x768.Idx → EReal) (ix2 k g))
          (fun g => (V c main_arg3 : S768.Idx → EReal) (ix1 g)) (fun g => (V c main_arg4 : S768.Idx → EReal) (ix1 g)) q := by
  rw [hidden_array V c]
  exact hiddenArray_at (V c main_v8) (V c main_v10) (V c main_arg3) (V c main_arg4) (ix2 r q) r q rfl rfl

end Cert.KernelIdeal.HiddenArray

end
-- ==== Proof.LogitArray.lean ====
/-
  The array the second kernel leaves: every row's logits.

  The second kernel cuts the 8192 x 32000 array of logits into 16 x 10 blocks of 512 rows and 3200 columns. The grid
  point with coordinates (j, i), j < 10 and i < 16, computes the block at block-row i and block-column j. For it, it
  is handed three blocks of the arrays the region finds on entry: rows 512 i ... 512 i + 511 (all 256 columns) of the
  hidden states, columns 3200 j ... 3200 j + 3199 (all 256 rows) of the transposed classifier weights, and the same
  columns of the one-row bias. What it stores at entry (p, q) of its block is the logit of row p of the first against
  column q of the second plus entry q of the third. Read back in the coordinates of the whole arrays this says: entry
  (r, v) of the output, r = 512 i + p and v = 3200 j + q, is the logit of row r of the hidden states against column v of
  the classifier weights plus entry v of the bias: one function of the entry arrays, the same for every block. Every
  (r, v) lies in exactly the block with i = r / 512 and j = v / 3200, and every point writes its block back, so the
  whole array ends holding that function.
-/
import proofs.«177133_j71777493451434_2_alg».proof.Proof.Gen.KernelIdeal.Frame
import proofs.«177133_j71777493451434_2_alg».proof.Proof.Payloads
import proofs.«177133_j71777493451434_2_alg».proof.Proof.Spec
import Idealize.ShloMosaic.Lib.Pipeline.Value
import Idealize.ShloMosaic.Lib.ValueIdx

set_option maxRecDepth 16384

noncomputable section

open scoped BigOperators

namespace Cert.KernelIdeal.LogitArray

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The offsets of a rectangle that starts at the corner of its array are zero on both axes. -/
theorem corner_offsets : (![0, 0] : Fin 2 → Nat) = fun _ => 0 := funext fun a => by fin_cases a <;> rfl

/-- THE WHOLE ARRAY OF LOGITS as one function of the three arrays the region finds: entry (r, v) is the logit of row r
    of the hidden states H against column v of the classifier weights C, plus entry v of the bias row D. -/
def logits (H : S8192x256.Idx → EReal) (C : S256x32000.Idx → EReal) (D : S1x32000.Idx → EReal) :
    S8192x32000.Idx → EReal := fun j =>
  Cert.Spec.logitRow (fun k => H (ix2 (⟨(j 0).val, idx2_lt0 j⟩ : Fin 8192) k))
    (fun k => C (ix2 k (⟨(j 1).val, idx2_lt1 j⟩ : Fin 32000)))
    (D (ix2 (0 : Fin 1) (⟨(j 1).val, idx2_lt1 j⟩ : Fin 32000)))

/-- ONE ENTRY OF ONE BLOCK. Let x0, x1, x2 be blocks of H, C, D such that row p of x0 is row r of H, column q of x1 is
    column v of C, and entry q of x2 is entry v of D. Then what the kernel body stores at (p, q) is entry (r, v) of the
    array of logits: the body's value there is the logit of row p of x0 against column q of x1 plus entry q of x2, and
    a logit depends on its row, its column and its bias entry only. -/
theorem block_entry (H : S8192x256.Idx → EReal) (C : S256x32000.Idx → EReal) (D : S1x32000.Idx → EReal)
    (x0 : Vec Ideal S512x256 .bf16) (x1 : Vec Ideal S256x3200 .bf16) (x2 : Vec Ideal S1x3200 .f32)
    (p : Fin 512) (q : Fin 3200) (r : Fin 8192) (v : Fin 32000)
    (h0 : ∀ k : Fin 256, x0 (ix2 p k) = H (ix2 r k))
    (h1 : ∀ k : Fin 256, x1 (ix2 k q) = C (ix2 k v))
    (h2 : x2 (ix2 (0 : Fin 1) q) = D (ix2 (0 : Fin 1) v)) :
    k1_pay1 (F := Ideal) x0 x1 x2 (ix2 p q) = logits H C D (ix2 r v) := by
  refine (Payloads.cls_payload_apply x0 x1 x2 p q).trans ?_
  have e0 : (fun k : Fin 256 => x0 (ix2 p k)) = fun k : Fin 256 => H (ix2 r k) := funext h0
  have e1 : (fun k : Fin 256 => x1 (ix2 k q)) = fun k : Fin 256 => C (ix2 k v) := funext h1
  rw [e0, e1, h2]
  rfl

/-- WHERE THE BLOCKS SIT, decided once over the 160 grid points. Write (I, J) for the block-row and block-column of
    the output block of point t. The hidden-state block has block-row I and block-column 0; the weight block and the
    bias block have block-row 0 and block-column J; and I < 16, J < 10. -/
theorem block_positions : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) ≤ 15 ∧ win1_3.index t (1 : Fin 2) ≤ 9 :=
  (by decide +kernel : ∀ t : Fin grid1.N, _)

/-- Every one of the 16 x 10 output blocks is some point's: (I, J) is the block of the point with grid coordinates
    (J, I). -/
theorem block_onto : ∀ (I : Fin 16) (J : Fin 10), ∃ t : Fin cfg1.N, win1_3.index t = ![I.val, J.val] :=
  (by decide +kernel : ∀ (I : Fin 16) (J : Fin 10), ∃ t : Fin grid1.N, win1_3.index t = ![I.val, J.val])

/-- WHAT POINT t WRITES BACK is block t of the array of logits of the entry arrays. The body leaves, at (p, q) of its
    output buffer, its value on the three input blocks of t. By `block_positions` row p of the hidden-state block is row
    512 I + p of the hidden states, column q of the weight block is column 3200 J + q of the weights, entry q of the
    bias block is entry 3200 J + q of the bias row, and (512 I + p, 3200 J + q) is where entry (p, q) of the output
    block sits in the output array: an element of a block sits, on each axis, at the block's index times the block's
    extent plus its coordinate inside the block. -/
theorem flushed_eq (c : Dev nD) (t : Fin cfg1.N) :
    (dat1 (F := Ideal) V c).flushed 3 t
      = ((cfg1.win 3).blk t).view.read (Elt Ideal)
          (logits (V c main_v14) (V c main_v12) (V c main_v13)) := by
  show (cfg1.win 3).cut (grid1.coords t) ((dat1 (F := Ideal) V c).after 3 t) = _
  rw [after1_3]
  unfold out1_3
  rw [View.canon_unit_zero corner_offsets]
  simp only [View.ld_unit_zero (S := S512x256) corner_offsets, View.ld_unit_zero (S := S256x3200) corner_offsets,
    View.ld_unit_zero (S := S1x3200) corner_offsets]
  obtain ⟨e00, e01, e10, e11, e20, e21, b0, b1⟩ := block_positions t
  funext y
  have hp : (y 0).val < 512 := (y 0).isLt
  have hq : (y 1).val < 3200 := (y 1).isLt
  have hr : win1_3.index t (0 : Fin 2) * 512 + 1 * (y 0).val < 8192 := by omega
  have hv : win1_3.index t (1 : Fin 2) * 3200 + 1 * (y 1).val < 32000 := by omega
  show k1_pay1 (F := Ideal) (iblk1 V c 0 t) (iblk1 V c 1 t) (iblk1 V c 2 t) (ix2 (⟨(y 0).val, hp⟩ : Fin 512) (⟨(y 1).val, hq⟩ : Fin 3200))
    = logits (V c main_v14) (V c main_v12) (V c main_v13)
        (ix2 (⟨win1_3.index t (0 : Fin 2) * 512 + 1 * (y 0).val, hr⟩ : Fin 8192)
          (⟨win1_3.index t (1 : Fin 2) * 3200 + 1 * (y 1).val, hv⟩ : Fin 32000))
  refine block_entry (V c main_v14) (V c main_v12) (V c main_v13) (iblk1 V c 0 t) (iblk1 V c 1 t) (iblk1 V c 2 t)
    ⟨(y 0).val, hp⟩ ⟨(y 1).val, hq⟩ ⟨win1_3.index t (0 : Fin 2) * 512 + 1 * (y 0).val, hr⟩
    ⟨win1_3.index t (1 : Fin 2) * 3200 + 1 * (y 1).val, hv⟩ (fun k => ?_) (fun k => ?_) ?_
  · -- row p of the hidden-state block is row 512 I + p of the hidden states, column for column
    show V c main_v14 (((cfg1.win 0).blk t).view.emb (ix2 (⟨(y 0).val, hp⟩ : Fin 512) k)) = V c main_v14 _
    refine congrArg (V c main_v14) (funext fun a => Fin.ext ?_)
    match a with
    | ⟨0, _⟩ => show win1_0.index t (0 : Fin 2) * 512 + 1 * (y 0).val = win1_3.index t (0 : Fin 2) * 512 + 1 * (y 0).val; omega
    | ⟨1, _⟩ => show win1_0.index t (1 : Fin 2) * 256 + 1 * k.val = k.val; omega
  · -- column q of the weight block is column 3200 J + q of the weights, row for row
    show V c main_v12 (((cfg1.win 1).blk t).view.emb (ix2 k (⟨(y 1).val, hq⟩ : Fin 3200))) = V c main_v12 _
    refine congrArg (V c main_v12) (funext fun a => Fin.ext ?_)
    match a with
    | ⟨0, _⟩ => show win1_1.index t (0 : Fin 2) * 256 + 1 * k.val = k.val; omega
    | ⟨1, _⟩ => show win1_1.index t (1 : Fin 2) * 3200 + 1 * (y 1).val = win1_3.index t (1 : Fin 2) * 3200 + 1 * (y 1).val; omega
  · -- entry q of the bias block is entry 3200 J + q of the bias row
    show V c main_v13 (((cfg1.win 2).blk t).view.emb (ix2 (0 : Fin 1) (⟨(y 1).val, hq⟩ : Fin 3200))) = V c main_v13 _
    refine congrArg (V c main_v13) (funext fun a => Fin.ext ?_)
    match a with
    | ⟨0, _⟩ => show win1_2.index t (0 : Fin 2) * 1 + 1 * 0 = 0; omega
    | ⟨1, _⟩ => show win1_2.index t (1 : Fin 2) * 3200 + 1 * (y 1).val = win1_3.index t (1 : Fin 2) * 3200 + 1 * (y 1).val; omega

/-- An entry (r, v) of the output array is in point t's block iff on each axis its coordinate lies in the block's
    range: from the block's index times the block's extent, for one extent. -/
theorem mem_block (t : Fin cfg1.N) (i : S8192x32000.Idx) :
    i ∈ ((cfg1.win 3).blk t).view.set
      ↔ ∀ a : Fin 2, win1_3.index t a * S512x3200.size a ≤ (i a).val
          ∧ (i a).val < win1_3.index t a * S512x3200.size a + S512x3200.size a := by
  show i ∈ ((View.whole main_v15).slice (win1_3.rect t)).set ↔ _
  rw [View.set_slice_whole, Rect.mem_set_unit]
  exact Iff.rfl

/-- THE BLOCKS COVER THE ARRAY: entry (r, v) lies in the block with block-row r / 512 and block-column v / 3200
    (r < 8192 = 16 * 512 and v < 32000 = 10 * 3200, so these are below 16 and 10), since
    512 (r / 512) ≤ r < 512 (r / 512) + 512 and likewise for v; that block is some point's, and every point writes
    its block back. -/
theorem covered (i : S8192x32000.Idx) :
    ∃ t : Fin cfg1.N, (cfg1.win 3).flush t = true ∧ i ∈ ((cfg1.win 3).blk t).view.set := by
  have hi0 : (i 0).val < 8192 := (i 0).isLt
  have hi1 : (i 1).val < 32000 := (i 1).isLt
  obtain ⟨t, ht⟩ := block_onto ⟨(i 0).val / 512, by omega⟩ ⟨(i 1).val / 3200, by omega⟩
  have q0 : win1_3.index t (0 : Fin 2) = (i 0).val / 512 := congrFun ht 0
  have q1 : win1_3.index t (1 : Fin 2) = (i 1).val / 3200 := congrFun ht 1
  refine ⟨t, flush1_3 t, ?_⟩
  rw [mem_block]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 3200 ≤ (i 1).val ∧ (i 1).val < win1_3.index t (1 : Fin 2) * 3200 + 3200
    omega

/-- THE ARRAY AFTER THE REGION: the array of logits of the arrays the region found. Each point's write-back is its
    block of that one function (`flushed_eq`) and the blocks cover the array (`covered`), so every entry ends at the
    value of that function, in whatever order the points write. -/
theorem logit_array (c : Dev nD) :
    (dat1 (F := Ideal) V c).arrAt 3 cfg1.N = logits (V c main_v14) (V c main_v12) (V c main_v13) :=
  (dat1 (F := Ideal) V c).arrAt_eq_of_cover 3 (logits (V c main_v14) (V c main_v12) (V c main_v13))
    (fun t _ => flushed_eq V c t) covered

/-- Entry (r, v) of the array the second kernel leaves is the logit of row r of the hidden states it found against
    column v of the classifier weights, plus entry v of the bias row. -/
theorem logit_array_apply (c : Dev nD) (r : Fin 8192) (v : Fin 32000) :
    ((dat1 (F := Ideal) V c).arrAt 3 cfg1.N : S8192x32000.Idx → EReal) (ix2 r v)
      = Cert.Spec.logitRow (fun k => (V c main_v14 : S8192x256.Idx → EReal) (ix2 r k))
          (fun k => (V c main_v12 : S256x32000.Idx → EReal) (ix2 k v))
          ((V c main_v13 : S1x32000.Idx → EReal) (ix2 (0 : Fin 1) v)) := by
  rw [logit_array V c]
  rfl

end Cert.KernelIdeal.LogitArray

end
-- ==== Proof.KernelValue.lean ====
/-
  The kernel program's result as one function of its seven arguments.

  Follow one entry (b, t, v) of the result backwards through the program. The closing reshape reads row 128 b + t,
  column v of the second kernel's output. The second kernel's output at a row and a column is the logit of that row
  of the hidden-state array against that column of the transposed classifier weights, plus the bias; the
  transposed weights and the bias row are what the host operations made of the classifier's arguments, untouched by
  the first kernel. The hidden-state array is the first kernel's output: its row is the new hidden state of the same
  row of the token array, and row 128 b + t of the token array is the embedding of token (b, t). So the entry is the
  logit, for vocabulary entry v, of the hidden state of the embedding of token (b, t): `logitAt`.
-/
import proofs.«177133_j71777493451434_2_alg».proof.Proof.KernelRun
import proofs.«177133_j71777493451434_2_alg».proof.Proof.HostGlue
import proofs.«177133_j71777493451434_2_alg».proof.Proof.HiddenArray
import proofs.«177133_j71777493451434_2_alg».proof.Proof.LogitArray
import proofs.«177133_j71777493451434_2_alg».proof.Proof.Spec

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.HostGlue

/-- The logit of token (b, t) for vocabulary entry v, from the seven arguments: the token ids and the embedding
    table (through the embedded tokens), the input weights w and bias bi, the hidden bias bh, the classifier weights
    wc and bias bc. -/
def logitAt (ids : (⟨S64x128, .i32⟩ : BufTy).Contents (Elt Ideal)) (table : (⟨S32000x256, .f32⟩ : BufTy).Contents (Elt Ideal))
    (w : S768x256.Idx → EReal) (bi bh : S768.Idx → EReal) (wc : S32000x256.Idx → EReal) (bc : S32000.Idx → EReal)
    (b : Fin 64) (t : Fin 128) (v : Fin 32000) : EReal :=
  Cert.Spec.logitRow
    (Cert.Spec.hiddenRow (fun k => embedded ids table (ix3 b t k)) (fun g k => w (ix2 g k)) (fun g => bi (ix1 g)) (fun g => bh (ix1 g)))
    (fun k => wc (ix2 v k)) (bc (ix1 v))

/-- Row 128 b + t belongs to batch b -/
theorem batchOf_rowOf (b : Fin 64) (t : Fin 128) : batchOf (rowOf b t) = b :=
  Fin.ext (by show (b.val * 128 + t.val) / 128 = b.val; have := t.isLt; omega)

/-- and to time t (t < 128). -/
theorem timeOf_rowOf (b : Fin 64) (t : Fin 128) : timeOf (rowOf b t) = t :=
  Fin.ext (by show (b.val * 128 + t.val) % 128 = t.val; have := t.isLt; omega)

variable (m : (ℓ : Loc nD τ sig) → Buf (Elt Ideal) ℓ) (ρ : Dev nD → PrngReg)

/-- The hidden-state array the second kernel reads, at row 128 b + t: the new hidden state of the embedding of
    token (b, t). It is the first kernel's output array; that array's row is the hidden state of the same row of the
    token array, over the transposed input weights and the two biases as the host operations left them; and those
    are, entry for entry, the embedded tokens, the input weights and the biases themselves. -/
theorem hidden_entry (c : Dev nD) (b : Fin 64) (t : Fin 128) (k : Fin 256) :
    (V2 m ρ c main_v14 : S8192x256.Idx → EReal) (ix2 (rowOf b t) k)
      = Cert.Spec.hiddenRow
          (fun k' => embedded (m ((c : Thread nD τ).loc main_arg0)) (m ((c : Thread nD τ).loc main_arg1)) (ix3 b t k'))
          (fun g k' => (m ((c : Thread nD τ).loc main_arg2) : S768x256.Idx → EReal) (ix2 g k'))
          (fun g => (m ((c : Thread nD τ).loc main_arg3) : S768.Idx → EReal) (ix1 g))
          (fun g => (m ((c : Thread nD τ).loc main_arg4) : S768.Idx → EReal) (ix1 g)) k := by
  have tokens : (fun k' => (V1 m ρ c main_v8 : S8192x256.Idx → EReal) (ix2 (rowOf b t) k'))
      = fun k' => embedded (m ((c : Thread nD τ).loc main_arg0)) (m ((c : Thread nD τ).loc main_arg1)) (ix3 b t k') :=
    funext fun k' => by rw [tokens_apply, batchOf_rowOf, timeOf_rowOf]
  have weights : (fun g k' => (V1 m ρ c main_v10 : S256x768.Idx → EReal) (ix2 k' g))
      = fun g k' => (m ((c : Thread nD τ).loc main_arg2) : S768x256.Idx → EReal) (ix2 g k') :=
    funext fun g => funext fun k' => inW_apply m ρ c k' g
  have inBias : (fun g => (V1 m ρ c main_arg3 : S768.Idx → EReal) (ix1 g))
      = fun g => (m ((c : Thread nD τ).loc main_arg3) : S768.Idx → EReal) (ix1 g) := by rw [inB_eq]
  have hidBias : (fun g => (V1 m ρ c main_arg4 : S768.Idx → EReal) (ix1 g))
      = fun g => (m ((c : Thread nD τ).loc main_arg4) : S768.Idx → EReal) (ix1 g) := by rw [hidB_eq]
  calc (V2 m ρ c main_v14 : S8192x256.Idx → EReal) (ix2 (rowOf b t) k)
      = ((dat0 (F := Ideal) (V1 m ρ) c).arrAt 4 cfg0.N : S8192x256.Idx → EReal) (ix2 (rowOf b t) k) :=
        congrFun (W2_arr m ρ c 4) _
    _ = Cert.Spec.hiddenRow (fun k' => (V1 m ρ c main_v8 : S8192x256.Idx → EReal) (ix2 (rowOf b t) k'))
          (fun g k' => (V1 m ρ c main_v10 : S256x768.Idx → EReal) (ix2 k' g))
          (fun g => (V1 m ρ c main_arg3 : S768.Idx → EReal) (ix1 g)) (fun g => (V1 m ρ c main_arg4 : S768.Idx → EReal) (ix1 g)) k :=
        HiddenArray.hidden_array_apply (V1 m ρ) c (rowOf b t) k
    _ = _ := by rw [tokens, weights, inBias, hidBias]

/-- THE RESULT AT ONE ENTRY: entry (b, t, v) of the program's result is `logitAt` of the arguments. -/
theorem result_entry (c : Dev nD) (b : Fin 64) (t : Fin 128) (v : Fin 32000) :
    (W4 m ρ c (Proc.devRef .tc main_v16) : S64x128x32000.Idx → EReal) (ix3 b t v)
      = logitAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b t v := by
  have hidden : (fun k => (V2 m ρ c main_v14 : S8192x256.Idx → EReal) (ix2 (rowOf b t) k))
      = Cert.Spec.hiddenRow
          (fun k' => embedded (m ((c : Thread nD τ).loc main_arg0)) (m ((c : Thread nD τ).loc main_arg1)) (ix3 b t k'))
          (fun g k' => (m ((c : Thread nD τ).loc main_arg2) : S768x256.Idx → EReal) (ix2 g k'))
          (fun g => (m ((c : Thread nD τ).loc main_arg3) : S768.Idx → EReal) (ix1 g))
          (fun g => (m ((c : Thread nD τ).loc main_arg4) : S768.Idx → EReal) (ix1 g)) :=
    funext fun k => hidden_entry m ρ c b t k
  -- the first kernel writes neither the transposed classifier weights nor the bias row
  have weights : (fun k => (V2 m ρ c main_v12 : S256x32000.Idx → EReal) (ix2 k v))
      = fun k => (m ((c : Thread nD τ).loc main_arg5) : S32000x256.Idx → EReal) (ix2 v k) :=
    funext fun k => (congrFun (W2_of_ne m ρ c main_v12 (by decide)) _).trans (clsW_apply m ρ c k v)
  have bias : (V2 m ρ c main_v13 : S1x32000.Idx → EReal) (ix2 (0 : Fin 1) v)
      = (m ((c : Thread nD τ).loc main_arg6) : S32000.Idx → EReal) (ix1 v) :=
    (congrFun (W2_of_ne m ρ c main_v13 (by decide)) _).trans (clsB_apply m ρ c v)
  calc (W4 m ρ c (Proc.devRef .tc main_v16) : S64x128x32000.Idx → EReal) (ix3 b t v)
      = (W3 m ρ c (Proc.devRef .tc main_v15) : S8192x32000.Idx → EReal) (ix2 (rowOf b t) v) := result_apply m ρ c b t v
    _ = ((dat1 (F := Ideal) (V2 m ρ) c).arrAt 3 cfg1.N : S8192x32000.Idx → EReal) (ix2 (rowOf b t) v) :=
        congrFun (W3_arr m ρ c 3) _
    _ = Cert.Spec.logitRow (fun k => (V2 m ρ c main_v14 : S8192x256.Idx → EReal) (ix2 (rowOf b t) k))
          (fun k => (V2 m ρ c main_v12 : S256x32000.Idx → EReal) (ix2 k v))
          ((V2 m ρ c main_v13 : S1x32000.Idx → EReal) (ix2 (0 : Fin 1) v)) :=
        LogitArray.logit_array_apply (V2 m ρ) c (rowOf b t) v
    _ = _ := by rw [hidden, weights, bias]; rfl

/-- THE KERNEL PROGRAM'S RUN, READ: every weakly fair execution terminates without a fault, the result buffer ends
    at the last contents of the fold through the program's four stretches (which `result_entry` reads entry by
    entry), and the seven arguments end as they were launched: no stretch writes one. -/
theorem run_result : θ_run defs (onTc (τ := τ) (main (F := Ideal))) ⟨m, fun _ => 0, ρ⟩ (fun r => ∀ c : Dev nD,
      r.2.mem ((c : Thread nD τ).loc main_v16) = W4 m ρ c (Proc.devRef .tc main_v16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c =>
      ⟨h c _ (mem_uc main_v16 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)
    (Run.run_all (F := Ideal) m ρ)

end Cert.KernelIdeal.KernelValue

end
-- ==== Proof.lean ====
/-
  A recurrent cell from a zero hidden state followed by a classifier, computed by two tiled kernels, equals its
  whole-array reference on the extended reals.

  Both programs take token ids [64, 128], an embedding table [32000, 256], input weights [768, 256], an input bias
  and a hidden bias [768], classifier weights [32000, 256] and a classifier bias [32000], and return logits
  [64, 128, 32000]. For the token at batch b, time t, with x its embedding (a negative id counted from the end of
  the table):
      a_g = (sum over k of x_k * w_{g,k}) + bi_g                                   (g < 768)
      r_q = logistic (a_q + bh_q),  z_q = logistic (a_{256+q} + bh_{256+q}),
      n_q = tanh (a_{512+q} + r_q * bh_{512+q}),  h_q = (1 - z_q) * n_q            (q < 256)
      logit_v = (sum over k of h_k * c_{v,k}) + d_v                                (v < 32000).

  The reference forms these for all tokens at once with two whole matrix products, and writes each logistic
  function out as 1 / (1 + e^(-a)). The kernel program first lays the tokens out as 8192 rows and transposes the two
  weight matrices; its first kernel computes h for 1024 rows at a time (one matrix product into a zero accumulator,
  the logistic function as one operation), its second computes the logits for a 512 x 3200 tile at a time, and a
  closing reshape lays the rows back out as 64 x 128. On the extended reals a change of float format is the
  identity, a product into a zero accumulator is the plain sum over the contracted axis, the logistic operation is
  by definition that quotient, and the word of 1.0 denotes 1; tiling only decides WHERE an entry is computed. So the
  two programs compute, entry for entry, the same expression of the same numbers: no sum is reordered and nothing is
  distributed or cancelled, and the equality holds for every extended-real input (the precondition, that the inputs
  are finite, is not used).

  The pieces: Proof/Spec.lean states the formulas above for one token row. Proof/RefValue.lean shows the reference's
  result at an entry is them. Proof/Payloads.lean shows each kernel body's stored value at an entry is them;
  Proof/HiddenArray.lean and Proof/LogitArray.lean pass from the tiles to the two output arrays; Proof/HostGlue.lean
  reads the host operations around the kernels; Proof/KernelRun.lean is the kernel program's run with every buffer
  named at its end, and Proof/KernelValue.lean chains these into the result at an entry. Below, the two results are
  joined entry by entry.
-/
import proofs.«177133_j71777493451434_2_alg».proof.Defs
import proofs.«177133_j71777493451434_2_alg».proof.Proof.Gen.Kernel
import proofs.«177133_j71777493451434_2_alg».proof.Proof.Gen.Kernel.Skeleton
import proofs.«177133_j71777493451434_2_alg».proof.Proof.Gen.Kernel.Launch
import proofs.«177133_j71777493451434_2_alg».proof.Proof.Gen.Kernel.Points
import proofs.«177133_j71777493451434_2_alg».proof.Proof.Gen.Kernel.Frame
import proofs.«177133_j71777493451434_2_alg».proof.Proof.Gen.KernelIdeal
import proofs.«177133_j71777493451434_2_alg».proof.Proof.Gen.KernelIdeal.Skeleton
import proofs.«177133_j71777493451434_2_alg».proof.Proof.Gen.KernelIdeal.Launch
import proofs.«177133_j71777493451434_2_alg».proof.Proof.Gen.KernelIdeal.Points
import proofs.«177133_j71777493451434_2_alg».proof.Proof.Gen.KernelIdeal.Frame
import proofs.«177133_j71777493451434_2_alg».proof.Proof.Gen.ReferenceIdeal
import proofs.«177133_j71777493451434_2_alg».proof.Proof.Gen.ReferenceIdeal.Run
import proofs.«177133_j71777493451434_2_alg».proof.Proof.Gen.ReferenceIdeal.Read
import proofs.«177133_j71777493451434_2_alg».proof.Proof.Gen.Pre_finite_inputs
import proofs.«177133_j71777493451434_2_alg».proof.Proof.RefValue
import proofs.«177133_j71777493451434_2_alg».proof.Proof.KernelValue
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel program as printed runs to the end without a fault and leaves its arguments as launched. -/
theorem frame_kernel : Cert.frame_Kernel :=
  fun m ρ _ => Cert.Kernel.Gen.frame m ρ

/-- So does its reading on the extended reals. -/
theorem frame_kernelIdeal : Cert.frame_KernelIdeal :=
  fun m ρ _ => Cert.KernelIdeal.Gen.frame m ρ

/-- The reference has no kernel: its run, with the result forgotten, is its frame. -/
theorem frame_reference : Cert.frame_ReferenceIdeal :=
  fun m ρ _ => (θ_run Cert.ReferenceIdeal.defs _ _).mono (fun _ h c => (h c).2)
    (Cert.ReferenceIdeal.Value.run (F := Ideal) m ρ)

/-- The two programs' results agree, entry by entry, from memories that agree on the arguments. The common value is
    the kernel program's own result. The reference's result at entry (b, t, v) is the logit of the hidden state of
    the embedding of token (b, t) (`reference_apply`), and so is the kernel program's (`result_entry`); the two
    statements spell the embedded tokens with each program's own copy of the same gather, which is one term. -/
theorem algebraic : Cert.algebraic_KernelIdeal_ReferenceIdeal := by
  intro m ρ m' ρ' _ hagree
  refine ⟨fun c => Cert.KernelIdeal.Gen.W4 m ρ c (Proc.devRef .tc Cert.KernelIdeal.main_v16),
    Cert.KernelIdeal.KernelValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v46_eq, h0, h1, h2, h3, h4, h5, h6]
  funext i
  obtain ⟨b, t, v, rfl⟩ : ∃ (b : Fin 64) (t : Fin 128) (v : Fin 32000), i = ix3 b t v := ⟨i 0, i 1, i 2, eq_ix3 i⟩
  exact (Cert.ReferenceIdeal.RefValue.reference_apply _ _ _ _ _ _ _ b t v).trans
    (Cert.KernelIdeal.KernelValue.result_entry m ρ c b t v).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
